-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S600000 .f32) (main_arg3 : FVec F S128x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S1x600000 : Shape := ⟨2, ![1, 600000]⟩
abbrev S50000 : Shape := ⟨1, ![50000]⟩
abbrev S650000 : Shape := ⟨1, ![650000]⟩
abbrev S650000x1 : Shape := ⟨2, ![650000, 1]⟩
abbrev S50000x256 : Shape := ⟨2, ![50000, 256]⟩
abbrev S5000x128 : Shape := ⟨2, ![5000, 128]⟩
abbrev S5000x256 : Shape := ⟨2, ![5000, 256]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩

abbrev nBuf : Space → Nat
  | .hbm => 121
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S600000, .f32⟩
  | .hbm, ⟨11, _⟩ => ⟨S600000, .f32⟩
  | .hbm, ⟨12, _⟩ => ⟨S600000, .f32⟩
  | .hbm, ⟨13, _⟩ => ⟨S600000, .f32⟩
  | .hbm, ⟨14, _⟩ => ⟨S600000, .i1⟩
  | .hbm, ⟨15, _⟩ => ⟨S600000, .f32⟩
  | .hbm, ⟨16, _⟩ => ⟨S600000, .f32⟩
  | .hbm, ⟨17, _⟩ => ⟨S600000, .f32⟩
  | .hbm, ⟨18, _⟩ => ⟨S600000, .f32⟩
  | .hbm, ⟨19, _⟩ => ⟨S600000, .f32⟩
  | .hbm, ⟨20, _⟩ => ⟨S600000, .f32⟩
  | .hbm, ⟨21, _⟩ => ⟨S600000, .f32⟩
  | .hbm, ⟨22, _⟩ => ⟨S600000, .f32⟩
  | .hbm, ⟨23, _⟩ => ⟨S1x600000, .i32⟩
  | .hbm, ⟨24, _⟩ => ⟨S600000, .i32⟩
  | .hbm, ⟨25, _⟩ => ⟨S1x600000, .i32⟩
  | .hbm, ⟨26, _⟩ => ⟨S600000, .i32⟩
  | .hbm, ⟨27, _⟩ => ⟨S50000, .i32⟩
  | .hbm, ⟨28, _⟩ => ⟨S650000, .i32⟩
  | .hbm, ⟨29, _⟩ => ⟨S650000, .i32⟩
  | .hbm, ⟨30, _⟩ => ⟨S_, .f32⟩
  | .hbm, ⟨31, _⟩ => ⟨S50000, .f32⟩
  | .hbm, ⟨32, _⟩ => ⟨S650000, .f32⟩
  | .hbm, ⟨33, _⟩ => ⟨S_, .f32⟩
  | .hbm, ⟨34, _⟩ => ⟨S50000, .f32⟩
  | .hbm, ⟨35, _⟩ => ⟨S650000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .i1⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000, .f32⟩
  | .hbm, ⟨53, _⟩ => ⟨S650000, .f32⟩
  | .hbm, ⟨54, _⟩ => ⟨S_, .i32⟩
  | .hbm, ⟨55, _⟩ => ⟨S650000, .i32⟩
  | .hbm, ⟨56, _⟩ => ⟨S650000, .i1⟩
  | .hbm, ⟨57, _⟩ => ⟨S_, .i32⟩
  | .hbm, ⟨58, _⟩ => ⟨S650000, .i32⟩
  | .hbm, ⟨59, _⟩ => ⟨S650000, .i32⟩
  | .hbm, ⟨60, _⟩ => ⟨S650000, .i32⟩
  | .hbm, ⟨61, _⟩ => ⟨S650000x1, .i32⟩
  | .hbm, ⟨62, _⟩ => ⟨S650000, .f32⟩
  | .hbm, ⟨63, _⟩ => ⟨S650000, .f32⟩
  | .hbm, ⟨64, _⟩ => ⟨S50000x256, .f32⟩
  | .hbm, ⟨65, _⟩ => ⟨S_, .i32⟩
  | .hbm, ⟨66, _⟩ => ⟨S650000, .i32⟩
  | .hbm, ⟨67, _⟩ => ⟨S650000, .i1⟩
  | .hbm, ⟨68, _⟩ => ⟨S_, .i32⟩
  | .hbm, ⟨69, _⟩ => ⟨S650000, .i32⟩
  | .hbm, ⟨70, _⟩ => ⟨S650000, .i32⟩
  | .hbm, ⟨71, _⟩ => ⟨S650000, .i32⟩
  | .hbm, ⟨72, _⟩ => ⟨S650000x1, .i32⟩
  | .hbm, ⟨73, _⟩ => ⟨S650000x256, .f32⟩
  | .hbm, ⟨74, _⟩ => ⟨S650000x1, .f32⟩
  | .hbm, ⟨75, _⟩ => ⟨S650000x256, .f32⟩
  | .hbm, ⟨76, _⟩ => ⟨S650000x256, .f32⟩
  | .hbm, ⟨77, _⟩ => ⟨S_, .f32⟩
  | .hbm, ⟨78, _⟩ => ⟨S50000x256, .f32⟩
  | .hbm, ⟨79, _⟩ => ⟨S650000x1, .i32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S_, .i32⟩
  | .hbm, ⟨85, _⟩ => ⟨S650000, .i32⟩
  | .hbm, ⟨86, _⟩ => ⟨S650000, .i1⟩
  | .hbm, ⟨87, _⟩ => ⟨S_, .i32⟩
  | .hbm, ⟨88, _⟩ => ⟨S650000, .i32⟩
  | .hbm, ⟨89, _⟩ => ⟨S650000, .i32⟩
  | .hbm, ⟨90, _⟩ => ⟨S650000, .i32⟩
  | .hbm, ⟨91, _⟩ => ⟨S650000x1, .i32⟩
  | .hbm, ⟨92, _⟩ => ⟨S650000x256, .f32⟩
  | .hbm, ⟨93, _⟩ => ⟨S650000x1, .f32⟩
  | .hbm, ⟨94, _⟩ => ⟨S650000x256, .f32⟩
  | .hbm, ⟨95, _⟩ => ⟨S650000x256, .f32⟩
  | .hbm, ⟨96, _⟩ => ⟨S_, .f32⟩
  | .hbm, ⟨97, _⟩ => ⟨S50000x256, .f32⟩
  | .hbm, ⟨98, _⟩ => ⟨S650000x1, .i32⟩
  | .hbm, ⟨99, _⟩ => ⟨S50000x256, .f32⟩
  | .hbm, ⟨100, _⟩ => ⟨S1x256, .f32⟩
  | .hbm, ⟨101, _⟩ => ⟨S50000x256, .f32⟩
  | .hbm, ⟨102, _⟩ => ⟨S50000x128, .f32⟩
  | .hbm, ⟨103, _⟩ => ⟨S_, .i32⟩
  | .hbm, ⟨104, _⟩ => ⟨S650000, .i32⟩
  | .hbm, ⟨105, _⟩ => ⟨S650000, .i1⟩
  | .hbm, ⟨106, _⟩ => ⟨S_, .i32⟩
  | .hbm, ⟨107, _⟩ => ⟨S650000, .i32⟩
  | .hbm, ⟨108, _⟩ => ⟨S650000, .i32⟩
  | .hbm, ⟨109, _⟩ => ⟨S650000, .i32⟩
  | .hbm, ⟨110, _⟩ => ⟨S650000x1, .i32⟩
  | .hbm, ⟨111, _⟩ => ⟨S650000x128, .f32⟩
  | .hbm, ⟨112, _⟩ => ⟨S650000x1, .f32⟩
  | .hbm, ⟨113, _⟩ => ⟨S650000x128, .f32⟩
  | .hbm, ⟨114, _⟩ => ⟨S650000x128, .f32⟩
  | .hbm, ⟨115, _⟩ => ⟨S_, .f32⟩
  | .hbm, ⟨116, _⟩ => ⟨S50000x128, .f32⟩
  | .hbm, ⟨117, _⟩ => ⟨S650000x1, .i32⟩
  | .hbm, ⟨118, _⟩ => ⟨S50000x128, .f32⟩
  | .hbm, ⟨119, _⟩ => ⟨S1x128, .f32⟩
  | .hbm, ⟨120, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_9 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_12 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S600000 : S_.BroadcastsInDim S600000 (![] : Fin 0 → Fin S600000.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x256_S5000x256_1_0_0_1_n_n_wf : DotDims.WF S5000x128 S128x256 S5000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S1x600000 : Shape := ⟨2, ![1, 600000]⟩
abbrev S50000 : Shape := ⟨1, ![50000]⟩
abbrev S650000 : Shape := ⟨1, ![650000]⟩
abbrev S650000x1 : Shape := ⟨2, ![650000, 1]⟩
abbrev S50000x256 : Shape := ⟨2, ![50000, 256]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S_, .f32⟩
  | 10 => ⟨S600000, .f32⟩
  | 11 => ⟨S600000, .f32⟩
  | 12 => ⟨S600000, .f32⟩
  | 13 => ⟨S600000, .f32⟩
  | 14 => ⟨S600000, .i1⟩
  | 15 => ⟨S600000, .f32⟩
  | 16 => ⟨S600000, .f32⟩
  | 17 => ⟨S600000, .f32⟩
  | 18 => ⟨S600000, .f32⟩
  | 19 => ⟨S600000, .f32⟩
  | 20 => ⟨S600000, .f32⟩
  | 21 => ⟨S600000, .f32⟩
  | 22 => ⟨S600000, .f32⟩
  | 23 => ⟨S1x600000, .i32⟩
  | 24 => ⟨S600000, .i32⟩
  | 25 => ⟨S1x600000, .i32⟩
  | 26 => ⟨S600000, .i32⟩
  | 27 => ⟨S50000, .i32⟩
  | 28 => ⟨S650000, .i32⟩
  | 29 => ⟨S650000, .i32⟩
  | 30 => ⟨S_, .f32⟩
  | 31 => ⟨S50000, .f32⟩
  | 32 => ⟨S650000, .f32⟩
  | 33 => ⟨S_, .f32⟩
  | 34 => ⟨S50000, .f32⟩
  | 35 => ⟨S650000x1, .i32⟩
  | 36 => ⟨S50000, .f32⟩
  | 37 => ⟨S_, .f32⟩
  | 38 => ⟨S50000, .f32⟩
  | 39 => ⟨S50000, .i1⟩
  | 40 => ⟨S50000, .f32⟩
  | 41 => ⟨S_, .f32⟩
  | 42 => ⟨S50000, .f32⟩
  | 43 => ⟨S50000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000, .f32⟩
  | 63 => ⟨S650000, .f32⟩
  | 64 => ⟨S50000x256, .f32⟩
  | 65 => ⟨S_, .i32⟩
  | 66 => ⟨S650000, .i32⟩
  | 67 => ⟨S650000, .i1⟩
  | 68 => ⟨S_, .i32⟩
  | 69 => ⟨S650000, .i32⟩
  | 70 => ⟨S650000, .i32⟩
  | 71 => ⟨S650000, .i32⟩
  | 72 => ⟨S650000x1, .i32⟩
  | 73 => ⟨S650000x256, .f32⟩
  | 74 => ⟨S650000x1, .f32⟩
  | 75 => ⟨S650000x256, .f32⟩
  | 76 => ⟨S650000x256, .f32⟩
  | 77 => ⟨S_, .f32⟩
  | 78 => ⟨S50000x256, .f32⟩
  | 79 => ⟨S650000x1, .i32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x256, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000x256, .f32⟩
  | 97 => ⟨S650000x1, .f32⟩
  | 98 => ⟨S650000x256, .f32⟩
  | 99 => ⟨S650000x256, .f32⟩
  | 100 => ⟨S_, .f32⟩
  | 101 => ⟨S50000x256, .f32⟩
  | 102 => ⟨S650000x1, .i32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x128, .f32⟩
  | 111 => ⟨S_, .i32⟩
  | 112 => ⟨S650000, .i32⟩
  | 113 => ⟨S650000, .i1⟩
  | 114 => ⟨S_, .i32⟩
  | 115 => ⟨S650000, .i32⟩
  | 116 => ⟨S650000, .i32⟩
  | 117 => ⟨S650000, .i32⟩
  | 118 => ⟨S650000x1, .i32⟩
  | 119 => ⟨S650000x128, .f32⟩
  | 120 => ⟨S650000x1, .f32⟩
  | 121 => ⟨S650000x128, .f32⟩
  | 122 => ⟨S650000x128, .f32⟩
  | 123 => ⟨S_, .f32⟩
  | 124 => ⟨S50000x128, .f32⟩
  | 125 => ⟨S650000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call2_cst : Ref sig .tc := ⟨.hbm, 84, rfl⟩
abbrev main_call2_v0 : Ref sig .tc := ⟨.hbm, 85, rfl⟩
abbrev main_v51 : Ref sig .tc := ⟨.hbm, 86, rfl⟩
abbrev main_v52 : Ref sig .tc := ⟨.hbm, 87, rfl⟩
abbrev main_c_9 : Ref sig .tc := ⟨.hbm, 88, rfl⟩
abbrev main_v53 : Ref sig .tc := ⟨.hbm, 89, rfl⟩
abbrev main_v54 : Ref sig .tc := ⟨.hbm, 90, rfl⟩
abbrev main_c_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_cst : Ref sig .tc := ⟨.hbm, 107, rfl⟩
abbrev main_call3_v0 : Ref sig .tc := ⟨.hbm, 108, rfl⟩
abbrev main_v69 : Ref sig .tc := ⟨.hbm, 109, rfl⟩
abbrev main_v70 : Ref sig .tc := ⟨.hbm, 110, rfl⟩
abbrev main_c_12 : Ref sig .tc := ⟨.hbm, 111, rfl⟩
abbrev main_v71 : Ref sig .tc := ⟨.hbm, 112, rfl⟩
abbrev main_v72 : Ref sig .tc := ⟨.hbm, 113, rfl⟩
abbrev main_c_13 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_14 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x256_S50000x256_1_0_0_1_n_n_wf : DotDims.WF S50000x128 S128x256 S50000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.ResultRun.lean ====
/-
  The idealized kernel's whole run with its result named.

  The program is thirteen segments: four stretches of host operations, then six grid regions with three more stretches
  between them. Each segment takes every buffer of a core from the contents at its entry to the contents at its exit, so
  the contents after the last segment are a thirteen-fold composition over the launch memory (the generated `W13`).
  The generated frame theorem reads that final contents only at the argument buffers. Here the same launch of the same
  segments is read at one more buffer, the result `main_v81`: every weakly fair execution terminates with the result
  buffer holding `W13` at it, and the arguments as launched.
-/
import proofs.«142243_j52939766890970_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v81) = W13 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v81 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Whole

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.LibConcatPair.lean ====
/-
  A concatenation of two arrays as a function of the two arrays alone.

  `concatenate t a xs h` takes its operands as a list of (shape, array) pairs, and the evidence `h` that the shapes fit is
  stated about that list. So the type of `h` mentions the arrays, and a rewrite of an operand inside the list has to carry
  `h` along: rewriting under a concatenation stops there. For two operands `pair` is the same array with the evidence
  stated about the two shapes only; `concatenate_pair` turns the one into the other (the two are the same term up to
  unfolding), after which both operands are ordinary arguments and can be rewritten.
-/
import Idealize.ShloMosaic.PureOps.ShapeOps

noncomputable section

namespace Cert.Lib.ConcatPair

open Idealize.ShloMosaic

variable {α : Type}

/-- Two arrays joined along axis `a` of the result shape `t`. -/
def pair (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A two-operand concatenation is `pair` of its operands. -/
theorem concatenate_pair (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pair t a s₁ s₂ x₁ x₂ h := rfl

end Cert.Lib.ConcatPair

end
-- ==== Proof.LibReadLine.lean ====
/-
  One tactic for reading a buffer's contents after a line of host operations.

  The contents after a line are a fold of the operations' results over the contents before it. Reading the fold at one
  buffer is a computation: each operation's result at its own result buffer is its function of its operands' contents, and
  at any other buffer what was there (the references differ: decided). `read_line` does this in one simplifier pass — so
  that a value with several consumers is visited once — with two additions:
    * a two-operand concatenation is opened into a function of its two operands (`Cert.Lib.ConcatPair`), so that the pass
      goes on inside them;
    * a value carried to an outlined function's buffer and back is left as it was (`Cert.Lib.Outlined.ofBuf_toBuf`).
  It leaves an equation between a pure term over the contents at the line's inputs and the goal's right-hand side (closed
  by `rfl` against the same term, or by the lemma that names the term), or closes the goal when the buffer is not written.
-/
import Idealize.ShloMosaic.Lib.StableHlo.Run
import proofs.«142243_j52939766890970_1_alg».proof.Proof.LibOutlined
import proofs.«142243_j52939766890970_1_alg».proof.Proof.LibConcatPair

namespace Cert.Lib.ReadLine

/-- Reads `after ops V (Proc.devRef .tc r)` for a literal list `ops` (possibly several nested `after`s): see the
    module's header. -/
macro "read_line" : tactic =>
  `(tactic| simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne',
      Cert.Lib.ConcatPair.concatenate_pair, Cert.Lib.Outlined.ofBuf_toBuf])

end Cert.Lib.ReadLine
-- ==== Proof.Entry.lean ====
/-
  The contents the first grid region is entered from, at the buffers the later segments read.

  Before the first region the program runs four stretches of host operations on the launch memory. They compute, from the
  edge list and the raw edge weights alone, the three arrays every layer's aggregation uses: the source row of every edge
  followed by the self-loops' rows (`main_v6`), the destination rows likewise (`main_v7`), and every edge's
  normalisation factor (`main_v33`: the inverse square roots of the two endpoint degrees times the edge's softplus
  weight). The reference computes the same three arrays with the same operations in the same order, so each is the
  reference's own stage of the launch arguments. No stretch writes an argument, so every argument is still as launched.
-/
import proofs.«142243_j52939766890970_1_alg».proof.Proof.Gen.KernelIdeal.Frame
import proofs.«142243_j52939766890970_1_alg».proof.Proof.Gen.ReferenceIdeal.Read
import proofs.«142243_j52939766890970_1_alg».proof.Proof.LibReadLine

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Lib.ReadLine

variable (m : (ℓ : Loc nD τ sig) → Buf (Elt Ideal) ℓ) (ρ : Dev nD → PrngReg)

/-! ## Each stretch, from whatever contents it starts from

Each lemma reads one result of one stretch off the program, from contents `X` of which only the stretch's inputs are
known, and identifies it with the reference's stage of the launch arguments (the reference runs the same operations in
the same order, so once the inputs are the reference's stages the two terms are one). -/

/-- The softplus of the raw edge weights, from the raw edge weights. -/
theorem softplus_stage (X : Valuation τ sig (Elt Ideal)) (a2 : (⟨S600000, .f32⟩ : BufTy).Contents (Elt Ideal))
    (h2 : X (Proc.devRef .tc main_arg2) = a2) :
    after hostOps0 X (Proc.devRef .tc main_v0) = Cert.ReferenceIdeal.Read.val_main_v0 (F := Ideal) a2 := by
  read_line
  rw [h2]
  rfl

/-- The edges' source rows followed by the self-loops' rows, from the edge list. -/
theorem src_stage (X : Valuation τ sig (Elt Ideal)) (a1 : (⟨S2x600000, .i32⟩ : BufTy).Contents (Elt Ideal))
    (h1 : X (Proc.devRef .tc main_arg1) = a1) :
    after hostOps0_1 X (Proc.devRef .tc main_v6) = Cert.ReferenceIdeal.Read.val_main_v6 (F := Ideal) a1 := by
  read_line
  rw [h1]
  rfl

/-- The edges' destination rows followed by the self-loops' rows, from the edge list. -/
theorem dst_stage (X : Valuation τ sig (Elt Ideal)) (a1 : (⟨S2x600000, .i32⟩ : BufTy).Contents (Elt Ideal))
    (h1 : X (Proc.devRef .tc main_arg1) = a1) :
    after hostOps0_1 X (Proc.devRef .tc main_v7) = Cert.ReferenceIdeal.Read.val_main_v7 (F := Ideal) a1 := by
  read_line
  rw [h1]
  rfl

/-- The edges' weights followed by the self-loops' unit weights, from the softplus weights. -/
theorem weight_stage (X : Valuation τ sig (Elt Ideal)) (a2 : (⟨S600000, .f32⟩ : BufTy).Contents (Elt Ideal))
    (h0 : X (Proc.devRef .tc main_v0) = Cert.ReferenceIdeal.Read.val_main_v0 (F := Ideal) a2) :
    after hostOps0_1 X (Proc.devRef .tc main_v9) = Cert.ReferenceIdeal.Read.val_main_v9 (F := Ideal) a2 := by
  read_line
  rw [h0]
  rfl

/-- Where the weighted degree is positive. -/
theorem degpos_stage (X : Valuation τ sig (Elt Ideal)) (a1 : (⟨S2x600000, .i32⟩ : BufTy).Contents (Elt Ideal)) (a2 : (⟨S600000, .f32⟩ : BufTy).Contents (Elt Ideal))
    (h1 : X (Proc.devRef .tc main_arg1) = a1)
    (h0 : X (Proc.devRef .tc main_v0) = Cert.ReferenceIdeal.Read.val_main_v0 (F := Ideal) a2) :
    after hostOps0_1 X (Proc.devRef .tc main_v14) = Cert.ReferenceIdeal.Read.val_main_v14 (F := Ideal) a1 a2 := by
  read_line
  rw [h1, h0]
  rfl

/-- The inverse square root of the weighted degree. -/
theorem rsqrt_stage (X : Valuation τ sig (Elt Ideal)) (a1 : (⟨S2x600000, .i32⟩ : BufTy).Contents (Elt Ideal)) (a2 : (⟨S600000, .f32⟩ : BufTy).Contents (Elt Ideal))
    (h1 : X (Proc.devRef .tc main_arg1) = a1)
    (h0 : X (Proc.devRef .tc main_v0) = Cert.ReferenceIdeal.Read.val_main_v0 (F := Ideal) a2) :
    after hostOps0_1 X (Proc.devRef .tc main_v15) = Cert.ReferenceIdeal.Read.val_main_v15 (F := Ideal) a1 a2 := by
  read_line
  rw [h1, h0]
  rfl

/-- The zeros the degree normalisation falls back to. -/
theorem zeros_stage (X : Valuation τ sig (Elt Ideal))
    :
    after hostOps0_1 X (Proc.devRef .tc main_v16) = Cert.ReferenceIdeal.Read.val_main_v16 (F := Ideal) := by
  read_line
  rfl

/-- The inverse square roots of the degrees (zero where the degree is not positive), from the comparison, the inverse
    square roots and the zeros the stretch before left. The outlined selection carries each operand to its buffer's own
    type and the result back; on these buffers each carrying is the identity. -/
theorem dinv_stage (X : Valuation τ sig (Elt Ideal)) (a1 : (⟨S2x600000, .i32⟩ : BufTy).Contents (Elt Ideal)) (a2 : (⟨S600000, .f32⟩ : BufTy).Contents (Elt Ideal))
    (h14 : X (Proc.devRef .tc main_v14) = Cert.ReferenceIdeal.Read.val_main_v14 (F := Ideal) a1 a2)
    (h15 : X (Proc.devRef .tc main_v15) = Cert.ReferenceIdeal.Read.val_main_v15 (F := Ideal) a1 a2)
    (h16 : X (Proc.devRef .tc main_v16) = Cert.ReferenceIdeal.Read.val_main_v16 (F := Ideal)) :
    after hostOps0_2 X (Proc.devRef .tc main_v17) = Cert.ReferenceIdeal.Read.val_main_v17 (F := Ideal) a1 a2 := by
  read_line
  rw [h14, h15, h16]
  have e17 : ∀ v : (⟨S50000, .f32⟩ : BufTy).Contents (Elt Ideal),
      (TRef.of (sig := sig) (T := ⟨S50000, .f32⟩) main_v17).toBuf v = v := fun _ => rfl
  have e14 : ∀ v : (⟨S50000, .i1⟩ : BufTy).Contents (Elt Ideal),
      (TRef.of (sig := sig) (T := ⟨S50000, .i1⟩) main_v14).ofBuf v = v := fun _ => rfl
  have e15 : ∀ v : (⟨S50000, .f32⟩ : BufTy).Contents (Elt Ideal),
      (TRef.of (sig := sig) (T := ⟨S50000, .f32⟩) main_v15).ofBuf v = v := fun _ => rfl
  have e16 : ∀ v : (⟨S50000, .f32⟩ : BufTy).Contents (Elt Ideal),
      (TRef.of (sig := sig) (T := ⟨S50000, .f32⟩) main_v16).ofBuf v = v := fun _ => rfl
  rw [e17, e14, e15, e16]
  rfl

/-- Every edge's normalisation factor: the source's and the destination's inverse square root degree times the edge's weight. -/
theorem norm_stage (X : Valuation τ sig (Elt Ideal)) (a1 : (⟨S2x600000, .i32⟩ : BufTy).Contents (Elt Ideal)) (a2 : (⟨S600000, .f32⟩ : BufTy).Contents (Elt Ideal))
    (h17 : X (Proc.devRef .tc main_v17) = Cert.ReferenceIdeal.Read.val_main_v17 (F := Ideal) a1 a2)
    (h6 : X (Proc.devRef .tc main_v6) = Cert.ReferenceIdeal.Read.val_main_v6 (F := Ideal) a1)
    (h9 : X (Proc.devRef .tc main_v9) = Cert.ReferenceIdeal.Read.val_main_v9 (F := Ideal) a2)
    (h7 : X (Proc.devRef .tc main_v7) = Cert.ReferenceIdeal.Read.val_main_v7 (F := Ideal) a1) :
    after hostOps0_3 X (Proc.devRef .tc main_v33) = Cert.ReferenceIdeal.Read.val_main_v33 (F := Ideal) a1 a2 := by
  read_line
  rw [h17, h6, h9, h7]
  rfl

/-! ## What a stretch does not write -/

theorem skip0_arg1 (X : Valuation τ sig (Elt Ideal)) :
    after hostOps0 X (Proc.devRef .tc main_arg1) = X (Proc.devRef .tc main_arg1) := by
  read_line

theorem skip02_v6 (X : Valuation τ sig (Elt Ideal)) :
    after hostOps0_2 X (Proc.devRef .tc main_v6) = X (Proc.devRef .tc main_v6) := by
  read_line

theorem skip02_v7 (X : Valuation τ sig (Elt Ideal)) :
    after hostOps0_2 X (Proc.devRef .tc main_v7) = X (Proc.devRef .tc main_v7) := by
  read_line

theorem skip02_v9 (X : Valuation τ sig (Elt Ideal)) :
    after hostOps0_2 X (Proc.devRef .tc main_v9) = X (Proc.devRef .tc main_v9) := by
  read_line

theorem skip03_v6 (X : Valuation τ sig (Elt Ideal)) :
    after hostOps0_3 X (Proc.devRef .tc main_v6) = X (Proc.devRef .tc main_v6) := by
  read_line

theorem skip03_v7 (X : Valuation τ sig (Elt Ideal)) :
    after hostOps0_3 X (Proc.devRef .tc main_v7) = X (Proc.devRef .tc main_v7) := by
  read_line

/-! ## The four stretches in turn, from the launch memory -/

theorem at1_v0 (c : Dev nD) : W1 m ρ c (Proc.devRef .tc main_v0) = Cert.ReferenceIdeal.Read.val_main_v0 (F := Ideal) (m ((c.tc : Thread nD τ).loc main_arg2)) :=
  softplus_stage (W0 m ρ c) (m ((c.tc : Thread nD τ).loc main_arg2)) rfl
theorem at1_arg1 (c : Dev nD) : W1 m ρ c (Proc.devRef .tc main_arg1) = m ((c.tc : Thread nD τ).loc main_arg1) :=
  skip0_arg1 (W0 m ρ c)

theorem at2_v6 (c : Dev nD) : W2 m ρ c (Proc.devRef .tc main_v6) = Cert.ReferenceIdeal.Read.val_main_v6 (F := Ideal) (m ((c.tc : Thread nD τ).loc main_arg1)) :=
  src_stage (W1 m ρ c) (m ((c.tc : Thread nD τ).loc main_arg1)) (at1_arg1 m ρ c)
theorem at2_v7 (c : Dev nD) : W2 m ρ c (Proc.devRef .tc main_v7) = Cert.ReferenceIdeal.Read.val_main_v7 (F := Ideal) (m ((c.tc : Thread nD τ).loc main_arg1)) :=
  dst_stage (W1 m ρ c) (m ((c.tc : Thread nD τ).loc main_arg1)) (at1_arg1 m ρ c)
theorem at2_v9 (c : Dev nD) : W2 m ρ c (Proc.devRef .tc main_v9) = Cert.ReferenceIdeal.Read.val_main_v9 (F := Ideal) (m ((c.tc : Thread nD τ).loc main_arg2)) :=
  weight_stage (W1 m ρ c) (m ((c.tc : Thread nD τ).loc main_arg2)) (at1_v0 m ρ c)
theorem at2_v14 (c : Dev nD) : W2 m ρ c (Proc.devRef .tc main_v14) = Cert.ReferenceIdeal.Read.val_main_v14 (F := Ideal) (m ((c.tc : Thread nD τ).loc main_arg1)) (m ((c.tc : Thread nD τ).loc main_arg2)) :=
  degpos_stage (W1 m ρ c) (m ((c.tc : Thread nD τ).loc main_arg1)) (m ((c.tc : Thread nD τ).loc main_arg2)) (at1_arg1 m ρ c) (at1_v0 m ρ c)
theorem at2_v15 (c : Dev nD) : W2 m ρ c (Proc.devRef .tc main_v15) = Cert.ReferenceIdeal.Read.val_main_v15 (F := Ideal) (m ((c.tc : Thread nD τ).loc main_arg1)) (m ((c.tc : Thread nD τ).loc main_arg2)) :=
  rsqrt_stage (W1 m ρ c) (m ((c.tc : Thread nD τ).loc main_arg1)) (m ((c.tc : Thread nD τ).loc main_arg2)) (at1_arg1 m ρ c) (at1_v0 m ρ c)
theorem at2_v16 (c : Dev nD) : W2 m ρ c (Proc.devRef .tc main_v16) = Cert.ReferenceIdeal.Read.val_main_v16 (F := Ideal) :=
  zeros_stage (W1 m ρ c)

theorem at3_v17 (c : Dev nD) : W3 m ρ c (Proc.devRef .tc main_v17) = Cert.ReferenceIdeal.Read.val_main_v17 (F := Ideal) (m ((c.tc : Thread nD τ).loc main_arg1)) (m ((c.tc : Thread nD τ).loc main_arg2)) :=
  dinv_stage (W2 m ρ c) (m ((c.tc : Thread nD τ).loc main_arg1)) (m ((c.tc : Thread nD τ).loc main_arg2)) (at2_v14 m ρ c) (at2_v15 m ρ c) (at2_v16 m ρ c)
theorem at3_v6 (c : Dev nD) : W3 m ρ c (Proc.devRef .tc main_v6) = Cert.ReferenceIdeal.Read.val_main_v6 (F := Ideal) (m ((c.tc : Thread nD τ).loc main_arg1)) :=
  (skip02_v6 (W2 m ρ c)).trans (at2_v6 m ρ c)
theorem at3_v7 (c : Dev nD) : W3 m ρ c (Proc.devRef .tc main_v7) = Cert.ReferenceIdeal.Read.val_main_v7 (F := Ideal) (m ((c.tc : Thread nD τ).loc main_arg1)) :=
  (skip02_v7 (W2 m ρ c)).trans (at2_v7 m ρ c)
theorem at3_v9 (c : Dev nD) : W3 m ρ c (Proc.devRef .tc main_v9) = Cert.ReferenceIdeal.Read.val_main_v9 (F := Ideal) (m ((c.tc : Thread nD τ).loc main_arg2)) :=
  (skip02_v9 (W2 m ρ c)).trans (at2_v9 m ρ c)

/-- The edges' source rows at the first region's entry. -/
theorem entry_v6 (c : Dev nD) : W4 m ρ c (Proc.devRef .tc main_v6) = Cert.ReferenceIdeal.Read.val_main_v6 (F := Ideal) (m ((c.tc : Thread nD τ).loc main_arg1)) :=
  (skip03_v6 (W3 m ρ c)).trans (at3_v6 m ρ c)
/-- The edges' destination rows at the first region's entry. -/
theorem entry_v7 (c : Dev nD) : W4 m ρ c (Proc.devRef .tc main_v7) = Cert.ReferenceIdeal.Read.val_main_v7 (F := Ideal) (m ((c.tc : Thread nD τ).loc main_arg1)) :=
  (skip03_v7 (W3 m ρ c)).trans (at3_v7 m ρ c)
/-- The edges' normalisation factors at the first region's entry. -/
theorem entry_v33 (c : Dev nD) : W4 m ρ c (Proc.devRef .tc main_v33) = Cert.ReferenceIdeal.Read.val_main_v33 (F := Ideal) (m ((c.tc : Thread nD τ).loc main_arg1)) (m ((c.tc : Thread nD τ).loc main_arg2)) :=
  norm_stage (W3 m ρ c) (m ((c.tc : Thread nD τ).loc main_arg1)) (m ((c.tc : Thread nD τ).loc main_arg2)) (at3_v17 m ρ c) (at3_v6 m ρ c) (at3_v9 m ρ c) (at3_v7 m ρ c)

/-- Argument 0 is as launched at the first region's entry. -/
theorem entry_arg0 (c : Dev nD) : W4 m ρ c (Proc.devRef .tc main_arg0) = m ((c.tc : Thread nD τ).loc main_arg0) := by
  show after hostOps0_3 (after hostOps0_2 (after hostOps0_1 (after hostOps0 (W0 m ρ c)))) (Proc.devRef .tc main_arg0) = _
  read_line

/-- Argument 3 is as launched at the first region's entry. -/
theorem entry_arg3 (c : Dev nD) : W4 m ρ c (Proc.devRef .tc main_arg3) = m ((c.tc : Thread nD τ).loc main_arg3) := by
  show after hostOps0_3 (after hostOps0_2 (after hostOps0_1 (after hostOps0 (W0 m ρ c)))) (Proc.devRef .tc main_arg3) = _
  read_line

/-- Argument 4 is as launched at the first region's entry. -/
theorem entry_arg4 (c : Dev nD) : W4 m ρ c (Proc.devRef .tc main_arg4) = m ((c.tc : Thread nD τ).loc main_arg4) := by
  show after hostOps0_3 (after hostOps0_2 (after hostOps0_1 (after hostOps0 (W0 m ρ c)))) (Proc.devRef .tc main_arg4) = _
  read_line

/-- Argument 5 is as launched at the first region's entry. -/
theorem entry_arg5 (c : Dev nD) : W4 m ρ c (Proc.devRef .tc main_arg5) = m ((c.tc : Thread nD τ).loc main_arg5) := by
  show after hostOps0_3 (after hostOps0_2 (after hostOps0_1 (after hostOps0 (W0 m ρ c)))) (Proc.devRef .tc main_arg5) = _
  read_line

/-- Argument 6 is as launched at the first region's entry. -/
theorem entry_arg6 (c : Dev nD) : W4 m ρ c (Proc.devRef .tc main_arg6) = m ((c.tc : Thread nD τ).loc main_arg6) := by
  show after hostOps0_3 (after hostOps0_2 (after hostOps0_1 (after hostOps0 (W0 m ρ c)))) (Proc.devRef .tc main_arg6) = _
  read_line

/-- Argument 7 is as launched at the first region's entry. -/
theorem entry_arg7 (c : Dev nD) : W4 m ρ c (Proc.devRef .tc main_arg7) = m ((c.tc : Thread nD τ).loc main_arg7) := by
  show after hostOps0_3 (after hostOps0_2 (after hostOps0_1 (after hostOps0 (W0 m ρ c)))) (Proc.devRef .tc main_arg7) = _
  read_line

/-- Argument 8 is as launched at the first region's entry. -/
theorem entry_arg8 (c : Dev nD) : W4 m ρ c (Proc.devRef .tc main_arg8) = m ((c.tc : Thread nD τ).loc main_arg8) := by
  show after hostOps0_3 (after hostOps0_2 (after hostOps0_1 (after hostOps0 (W0 m ρ c)))) (Proc.devRef .tc main_arg8) = _
  read_line

end Cert.KernelIdeal.Chain

end
-- ==== Proof.Carry.lean ====
/-
  The arrays shared by all three layers, and the later layers' weights and biases, at the later segments' entries.

  After the first region's entry nothing writes the edges' source rows, destination rows and normalisation factors, nor
  any argument: a grid region changes only its own output array, and a stretch of host operations only its own result
  buffers. So at the entry of each later stretch and region these buffers hold what they held at the first region's
  entry. Each lemma below walks one buffer back across the regions (not one of the region's arrays: decided) and the
  stretches (not one of the stretch's results: read off the stretch) to that entry.
-/
import proofs.«142243_j52939766890970_1_alg».proof.Proof.Gen.KernelIdeal.Frame
import proofs.«142243_j52939766890970_1_alg».proof.Proof.Gen.ReferenceIdeal.Read
import proofs.«142243_j52939766890970_1_alg».proof.Proof.LibReadLine
import proofs.«142243_j52939766890970_1_alg».proof.Proof.Entry

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Lib.ReadLine

variable (m : (ℓ : Loc nD τ sig) → Buf (Elt Ideal) ℓ) (ρ : Dev nD → PrngReg)

/-! ## A stretch leaves the buffers it does not write as it found them, whatever the contents it starts from -/

theorem skip1_v6 (X : Valuation τ sig (Elt Ideal)) :
    after hostOps1 X (Proc.devRef .tc main_v6) = X (Proc.devRef .tc main_v6) := by
  read_line

theorem skip1_v7 (X : Valuation τ sig (Elt Ideal)) :
    after hostOps1 X (Proc.devRef .tc main_v7) = X (Proc.devRef .tc main_v7) := by
  read_line

theorem skip1_v33 (X : Valuation τ sig (Elt Ideal)) :
    after hostOps1 X (Proc.devRef .tc main_v33) = X (Proc.devRef .tc main_v33) := by
  read_line

theorem skip1_arg5 (X : Valuation τ sig (Elt Ideal)) :
    after hostOps1 X (Proc.devRef .tc main_arg5) = X (Proc.devRef .tc main_arg5) := by
  read_line

theorem skip1_arg6 (X : Valuation τ sig (Elt Ideal)) :
    after hostOps1 X (Proc.devRef .tc main_arg6) = X (Proc.devRef .tc main_arg6) := by
  read_line

theorem skip1_arg7 (X : Valuation τ sig (Elt Ideal)) :
    after hostOps1 X (Proc.devRef .tc main_arg7) = X (Proc.devRef .tc main_arg7) := by
  read_line

theorem skip1_arg8 (X : Valuation τ sig (Elt Ideal)) :
    after hostOps1 X (Proc.devRef .tc main_arg8) = X (Proc.devRef .tc main_arg8) := by
  read_line

theorem skip3_v6 (X : Valuation τ sig (Elt Ideal)) :
    after hostOps3 X (Proc.devRef .tc main_v6) = X (Proc.devRef .tc main_v6) := by
  read_line

theorem skip3_v7 (X : Valuation τ sig (Elt Ideal)) :
    after hostOps3 X (Proc.devRef .tc main_v7) = X (Proc.devRef .tc main_v7) := by
  read_line

theorem skip3_v33 (X : Valuation τ sig (Elt Ideal)) :
    after hostOps3 X (Proc.devRef .tc main_v33) = X (Proc.devRef .tc main_v33) := by
  read_line

theorem skip3_arg7 (X : Valuation τ sig (Elt Ideal)) :
    after hostOps3 X (Proc.devRef .tc main_arg7) = X (Proc.devRef .tc main_arg7) := by
  read_line

theorem skip3_arg8 (X : Valuation τ sig (Elt Ideal)) :
    after hostOps3 X (Proc.devRef .tc main_arg8) = X (Proc.devRef .tc main_arg8) := by
  read_line

/-! ## After the first region -/

/-- After the first region: the edges' source rows. -/
theorem at5_v6 (c : Dev nD) :
    W5 m ρ c (Proc.devRef .tc main_v6) = Cert.ReferenceIdeal.Read.val_main_v6 (F := Ideal) (m ((c.tc : Thread nD τ).loc main_arg1)) :=
  (W5_of_ne m ρ c main_v6 (by decide)).trans (entry_v6 m ρ c)

/-- After the first region: the edges' destination rows. -/
theorem at5_v7 (c : Dev nD) :
    W5 m ρ c (Proc.devRef .tc main_v7) = Cert.ReferenceIdeal.Read.val_main_v7 (F := Ideal) (m ((c.tc : Thread nD τ).loc main_arg1)) :=
  (W5_of_ne m ρ c main_v7 (by decide)).trans (entry_v7 m ρ c)

/-- After the first region: the edges' normalisation factors. -/
theorem at5_v33 (c : Dev nD) :
    W5 m ρ c (Proc.devRef .tc main_v33) = Cert.ReferenceIdeal.Read.val_main_v33 (F := Ideal) (m ((c.tc : Thread nD τ).loc main_arg1)) (m ((c.tc : Thread nD τ).loc main_arg2)) :=
  (W5_of_ne m ρ c main_v33 (by decide)).trans (entry_v33 m ρ c)

/-- After the first region: argument 4. -/
theorem at5_arg4 (c : Dev nD) :
    W5 m ρ c (Proc.devRef .tc main_arg4) = m ((c.tc : Thread nD τ).loc main_arg4) :=
  (W5_of_ne m ρ c main_arg4 (by decide)).trans (entry_arg4 m ρ c)

/-- After the first region: argument 5. -/
theorem at5_arg5 (c : Dev nD) :
    W5 m ρ c (Proc.devRef .tc main_arg5) = m ((c.tc : Thread nD τ).loc main_arg5) :=
  (W5_of_ne m ρ c main_arg5 (by decide)).trans (entry_arg5 m ρ c)

/-- After the first region: argument 6. -/
theorem at5_arg6 (c : Dev nD) :
    W5 m ρ c (Proc.devRef .tc main_arg6) = m ((c.tc : Thread nD τ).loc main_arg6) :=
  (W5_of_ne m ρ c main_arg6 (by decide)).trans (entry_arg6 m ρ c)

/-- After the first region: argument 7. -/
theorem at5_arg7 (c : Dev nD) :
    W5 m ρ c (Proc.devRef .tc main_arg7) = m ((c.tc : Thread nD τ).loc main_arg7) :=
  (W5_of_ne m ρ c main_arg7 (by decide)).trans (entry_arg7 m ρ c)

/-- After the first region: argument 8. -/
theorem at5_arg8 (c : Dev nD) :
    W5 m ρ c (Proc.devRef .tc main_arg8) = m ((c.tc : Thread nD τ).loc main_arg8) :=
  (W5_of_ne m ρ c main_arg8 (by decide)).trans (entry_arg8 m ρ c)

/-! ## At the third region's entry and after it -/

/-- The second layer's weight matrix at the third region's entry. -/
theorem at7_arg5 (c : Dev nD) :
    W7 m ρ c (Proc.devRef .tc main_arg5) = m ((c.tc : Thread nD τ).loc main_arg5) :=
  (W7_of_ne m ρ c main_arg5 (by decide)).trans ((skip1_arg5 (W5 m ρ c)).trans (at5_arg5 m ρ c))

/-- After the third region: the edges' source rows. -/
theorem at8_v6 (c : Dev nD) :
    W8 m ρ c (Proc.devRef .tc main_v6) = Cert.ReferenceIdeal.Read.val_main_v6 (F := Ideal) (m ((c.tc : Thread nD τ).loc main_arg1)) :=
  (W8_of_ne m ρ c main_v6 (by decide)).trans ((W7_of_ne m ρ c main_v6 (by decide)).trans
    ((skip1_v6 (W5 m ρ c)).trans (at5_v6 m ρ c)))

/-- After the third region: the edges' destination rows. -/
theorem at8_v7 (c : Dev nD) :
    W8 m ρ c (Proc.devRef .tc main_v7) = Cert.ReferenceIdeal.Read.val_main_v7 (F := Ideal) (m ((c.tc : Thread nD τ).loc main_arg1)) :=
  (W8_of_ne m ρ c main_v7 (by decide)).trans ((W7_of_ne m ρ c main_v7 (by decide)).trans
    ((skip1_v7 (W5 m ρ c)).trans (at5_v7 m ρ c)))

/-- After the third region: the edges' normalisation factors. -/
theorem at8_v33 (c : Dev nD) :
    W8 m ρ c (Proc.devRef .tc main_v33) = Cert.ReferenceIdeal.Read.val_main_v33 (F := Ideal) (m ((c.tc : Thread nD τ).loc main_arg1)) (m ((c.tc : Thread nD τ).loc main_arg2)) :=
  (W8_of_ne m ρ c main_v33 (by decide)).trans ((W7_of_ne m ρ c main_v33 (by decide)).trans
    ((skip1_v33 (W5 m ρ c)).trans (at5_v33 m ρ c)))

/-- After the third region: argument 6. -/
theorem at8_arg6 (c : Dev nD) :
    W8 m ρ c (Proc.devRef .tc main_arg6) = m ((c.tc : Thread nD τ).loc main_arg6) :=
  (W8_of_ne m ρ c main_arg6 (by decide)).trans ((W7_of_ne m ρ c main_arg6 (by decide)).trans
    ((skip1_arg6 (W5 m ρ c)).trans (at5_arg6 m ρ c)))

/-- After the third region: argument 7. -/
theorem at8_arg7 (c : Dev nD) :
    W8 m ρ c (Proc.devRef .tc main_arg7) = m ((c.tc : Thread nD τ).loc main_arg7) :=
  (W8_of_ne m ρ c main_arg7 (by decide)).trans ((W7_of_ne m ρ c main_arg7 (by decide)).trans
    ((skip1_arg7 (W5 m ρ c)).trans (at5_arg7 m ρ c)))

/-- After the third region: argument 8. -/
theorem at8_arg8 (c : Dev nD) :
    W8 m ρ c (Proc.devRef .tc main_arg8) = m ((c.tc : Thread nD τ).loc main_arg8) :=
  (W8_of_ne m ρ c main_arg8 (by decide)).trans ((W7_of_ne m ρ c main_arg8 (by decide)).trans
    ((skip1_arg8 (W5 m ρ c)).trans (at5_arg8 m ρ c)))

/-! ## At the fifth region's entry and after it -/

/-- The third layer's weight matrix at the fifth region's entry. -/
theorem at10_arg7 (c : Dev nD) :
    W10 m ρ c (Proc.devRef .tc main_arg7) = m ((c.tc : Thread nD τ).loc main_arg7) :=
  (W10_of_ne m ρ c main_arg7 (by decide)).trans ((skip3_arg7 (W8 m ρ c)).trans (at8_arg7 m ρ c))

/-- After the fifth region: the edges' source rows. -/
theorem at11_v6 (c : Dev nD) :
    W11 m ρ c (Proc.devRef .tc main_v6) = Cert.ReferenceIdeal.Read.val_main_v6 (F := Ideal) (m ((c.tc : Thread nD τ).loc main_arg1)) :=
  (W11_of_ne m ρ c main_v6 (by decide)).trans ((W10_of_ne m ρ c main_v6 (by decide)).trans
    ((skip3_v6 (W8 m ρ c)).trans (at8_v6 m ρ c)))

/-- After the fifth region: the edges' destination rows. -/
theorem at11_v7 (c : Dev nD) :
    W11 m ρ c (Proc.devRef .tc main_v7) = Cert.ReferenceIdeal.Read.val_main_v7 (F := Ideal) (m ((c.tc : Thread nD τ).loc main_arg1)) :=
  (W11_of_ne m ρ c main_v7 (by decide)).trans ((W10_of_ne m ρ c main_v7 (by decide)).trans
    ((skip3_v7 (W8 m ρ c)).trans (at8_v7 m ρ c)))

/-- After the fifth region: the edges' normalisation factors. -/
theorem at11_v33 (c : Dev nD) :
    W11 m ρ c (Proc.devRef .tc main_v33) = Cert.ReferenceIdeal.Read.val_main_v33 (F := Ideal) (m ((c.tc : Thread nD τ).loc main_arg1)) (m ((c.tc : Thread nD τ).loc main_arg2)) :=
  (W11_of_ne m ρ c main_v33 (by decide)).trans ((W10_of_ne m ρ c main_v33 (by decide)).trans
    ((skip3_v33 (W8 m ρ c)).trans (at8_v33 m ρ c)))

/-- After the fifth region: argument 8. -/
theorem at11_arg8 (c : Dev nD) :
    W11 m ρ c (Proc.devRef .tc main_arg8) = m ((c.tc : Thread nD τ).loc main_arg8) :=
  (W11_of_ne m ρ c main_arg8 (by decide)).trans ((W10_of_ne m ρ c main_arg8 (by decide)).trans
    ((skip3_arg8 (W8 m ρ c)).trans (at8_arg8 m ρ c)))

end Cert.KernelIdeal.Chain

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«142243_j52939766890970_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseEntries.lean ====
/-
  The dense steps of a layer `x · w + b` (optionally clamped at zero), read at one entry, for any sizes.

  Over the extended reals, at entry `(p, q)`:

    * the product — a kernel body's `tpu.matmul` with plain dimension numbers of the two operands rounded to bf16, into
      the zero accumulator (`body_product_apply`), and the host's `dot_general` with plain dimension numbers
      (`host_product_apply`) — is `∑ k, x[p, k] · w[k, q]`: a change of float format is the identity and neither product
      has a schedule;
    * the bias row — a `[N]` vector broadcast by the host to `[1, N]` (`row_of_vector_apply`), which is the same array as the
      vector cast to `[1, N]` (`row_cast_eq`), and a `[1, N]` row broadcast by the host over `n` rows (`rows_of_row_apply`) —
      reads the vector at `q`;
    * the float zero broadcast by the host from a scalar constant reads the float zero (`host_zero_apply`).

  For a kernel that runs a layer's product and its bias step as separate row-blocked grids against a reference that runs
  them as host operations.
-/
import Idealize.ShloMosaic.Lib.ValueLayout
import Idealize.ShloMosaic.Lib.Pipeline.Value
import Idealize.ShloMosaic.PureOps.Ideal.Laws
import proofs.«142243_j52939766890970_1_alg».proof.Proof.LibDotCols
import proofs.«142243_j52939766890970_1_alg».proof.Proof.LibDotColsHost

noncomputable section

open scoped BigOperators

namespace Cert.Lib.DenseEntries

open Idealize.ShloMosaic Idealize.ShloMosaic.ValueIdx

variable {n K N : Nat}

/-! ## The product -/

/-- A body's product of the two blocks rounded to bf16, accumulated from zero, at entry `(p, q)`. -/
theorem body_product_apply (D : DotDims ⟨2, ![n, K]⟩ ⟨2, ![K, N]⟩ ⟨2, ![n, N]⟩) (hD : D = DotDims.plain n K N)
    (x : FVec Ideal ⟨2, ![n, K]⟩ .f32) (w : FVec Ideal ⟨2, ![K, N]⟩ .f32)
    (h1 : FTy.bf16.bits < FTy.f32.bits) (h2 : FTy.bf16.bits < FTy.f32.bits) (p : Fin n) (q : Fin N) :
    matmul D none (truncf .bf16 x h1) (truncf .bf16 w h2) (constant ⟨2, ![n, N]⟩ .f32 0x00000000#32) (ix2 p q)
      = ∑ k : Fin K, x (ix2 p k) * w (ix2 k q) :=
  (Cert.Lib.DotCols.matmul_cols_apply D hD none (truncf .bf16 x h1) (truncf .bf16 w h2) p q).trans
    (Finset.sum_congr rfl fun _ _ => rfl)

/-- The host's product at entry `(p, q)`. -/
theorem host_product_apply (D : DotDims ⟨2, ![n, K]⟩ ⟨2, ![K, N]⟩ ⟨2, ![n, N]⟩) (hD : D = DotDims.plain n K N)
    (x : FVec Ideal ⟨2, ![n, K]⟩ .f32) (w : FVec Ideal ⟨2, ![K, N]⟩ .f32) (p : Fin n) (q : Fin N) :
    Host.dotGeneral (F := Ideal) D none x w (ix2 p q) = ∑ k : Fin K, x (ix2 p k) * w (ix2 k q) := by
  simp only [Host.dotGeneral]
  exact Cert.Lib.DotColsHost.dotGeneral_cols_apply D hD none _ x w p q

/-! ## The bias row -/

/-- A `[N]` vector broadcast to one row `[1, N]` reads, at `(u, q)`, the vector at `q`. -/
theorem row_of_vector_apply (b : FVec Ideal ⟨1, ![N]⟩ .f32)
    (h : (⟨1, ![N]⟩ : Shape).BroadcastsInDim ⟨2, ![1, N]⟩ (![1] : Fin 1 → Fin 2)) (u : Fin 1) (q : Fin N) :
    broadcastInDim ⟨2, ![1, N]⟩ ![1] h b (ix2 u q) = b (ix1 q) := by
  refine broadcastInDim_apply _ h b (ix2 u q) (ix1 q) fun a => ?_
  match a with
  | ⟨0, _⟩ =>
    show q.val = if N = 1 then 0 else q.val
    split
    · have := q.isLt; omega
    · rfl

/-- A vector cast to one row and the vector broadcast to one row are the same `[1, N]` array. -/
theorem row_cast_eq (b : FVec Ideal ⟨1, ![N]⟩ .f32) (h : (⟨1, ![N]⟩ : Shape).ShapeCasts ⟨2, ![1, N]⟩)
    (h' : (⟨1, ![N]⟩ : Shape).BroadcastsInDim ⟨2, ![1, N]⟩ (![1] : Fin 1 → Fin 2)) :
    shapeCast ⟨2, ![1, N]⟩ b h = broadcastInDim ⟨2, ![1, N]⟩ ![1] h' b := by
  funext i
  obtain ⟨u, q, rfl⟩ : ∃ (u : Fin 1) (q : Fin N), i = ix2 u q := ⟨i 0, i 1, eq_ix2 i⟩
  rw [shapeCast_a_1a_apply, row_of_vector_apply]

/-- A row `[1, N]` broadcast by the host over `n` rows reads, at `(p, q)`, the row at `q`. -/
theorem rows_of_row_apply (r : FVec Ideal ⟨2, ![1, N]⟩ .f32)
    (h : (⟨2, ![1, N]⟩ : Shape).BroadcastsInDim ⟨2, ![n, N]⟩ (![0, 1] : Fin 2 → Fin 2)) (p : Fin n) (q : Fin N) :
    broadcastInDim ⟨2, ![n, N]⟩ ![0, 1] h r (ix2 p q) = r (ix2 (0 : Fin 1) q) := by
  refine broadcastInDim_apply _ h r (ix2 p q) (ix2 (0 : Fin 1) q) fun a => ?_
  match a with
  | ⟨0, _⟩ => rfl
  | ⟨1, _⟩ =>
    show q.val = if N = 1 then 0 else q.val
    split
    · have := q.isLt; omega
    · rfl

/-- The float zero broadcast by the host from a scalar constant reads the float zero everywhere. -/
theorem host_zero_apply (s : Shape) (h : (⟨0, ![]⟩ : Shape).BroadcastsInDim s (![] : Fin 0 → Fin s.rank)) (i : s.Idx) :
    broadcastInDim s ![] h (constant (F := Ideal) ⟨0, ![]⟩ .f32 0x00000000#32) i = Ideal.ofBits .f32 0x00000000#32 := by
  unfold broadcastInDim; rfl

end Cert.Lib.DenseEntries

end
-- ==== Proof.Dense1.lean ====
/-
  Layer 1's dense transform: what the first grid region leaves in its output array.

  The region has ten grid points. Point `t` fetches rows `5000·t … 5000·t + 4999` of the `50000 × 128` feature array and the
  whole `128 × 256` weight matrix, multiplies them (both rounded to bf16 first, accumulated from zero), and writes the
  `5000 × 256` product back to rows `5000·t …` of the output array. Over the extended reals a rounding is the identity and
  the product of a row block is the row block of the product, so each write-back is its block of ONE whole-array function:
  the host's `dot_general` of the feature array with the weight matrix (entry `(r, q)` is `∑ k, x[r, k] · w[k, q]` in both).
  The ten blocks tile the rows, so after the region the output array is that product — stated for whatever contents `V`
  the region is entered from.
-/
import proofs.«142243_j52939766890970_1_alg».proof.Proof.Gen.KernelIdeal.Frame
import proofs.«142243_j52939766890970_1_alg».proof.Proof.LibDenseEntries
import Idealize.ShloMosaic.Lib.Pipeline.Value

set_option maxRecDepth 16384

noncomputable section

open scoped BigOperators

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at grid point `t`: the feature and output blocks at row block `t`, the weight
    matrix whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The product of the whole arrays: what the output array ends holding. -/
abbrev whole (X : FVec Ideal ⟨2, ![50000, 128]⟩ .f32) (W : FVec Ideal ⟨2, ![128, 256]⟩ .f32) : FVec Ideal ⟨2, ![50000, 256]⟩ .f32 :=
  Host.dotGeneral (F := Ideal) (DotDims.plain 50000 128 256) none X W

/-- An entry of a row block's product is the entry of the whole product in the block's row: both are the sum over `k` of
    a feature row's entries times a weight column's. -/
theorem block_entry (x0 : Vec Ideal S5000x128 .f32) (x1 : Vec Ideal S128x256 .f32)
    (X : FVec Ideal ⟨2, ![50000, 128]⟩ .f32) (W : FVec Ideal ⟨2, ![128, 256]⟩ .f32) (r : Nat)
    (hx0 : ∀ (p : Fin 5000) (P : Fin 50000) (k : Fin 128), P.val = r + p.val → x0 (ix2 p k) = X (ix2 P k))
    (hx1 : ∀ (k : Fin 128) (q : Fin 256), x1 (ix2 k q) = W (ix2 k q))
    (p : Fin 5000) (q : Fin 256) (P : Fin 50000) (hP : P.val = r + p.val) :
    k0_pay1 x0 x1 (ix2 p q) = whole X W (ix2 P q) := by
  unfold k0_pay1
  refine (Cert.Lib.DenseEntries.body_product_apply _ rfl x0 x1 _ _ p q).trans ?_
  refine ((Cert.Lib.DenseEntries.host_product_apply _ rfl X W P q).trans ?_).symm
  exact Finset.sum_congr rfl fun k _ => by rw [hx0 p P k hP, hx1 k q]

/-- The same at any index `j` of the block and the index `i` of the array it is written to: row `r + j₀`, the same column. -/
theorem block_entry_at (x0 : Vec Ideal S5000x128 .f32) (x1 : Vec Ideal S128x256 .f32)
    (X : FVec Ideal ⟨2, ![50000, 128]⟩ .f32) (W : FVec Ideal ⟨2, ![128, 256]⟩ .f32) (r : Nat)
    (hx0 : ∀ (p : Fin 5000) (P : Fin 50000) (k : Fin 128), P.val = r + p.val → x0 (ix2 p k) = X (ix2 P k))
    (hx1 : ∀ (k : Fin 128) (q : Fin 256), x1 (ix2 k q) = W (ix2 k q))
    (j : S5000x256.Idx) (i : S50000x256.Idx) (h0 : (i 0).val = r + (j 0).val) (h1 : (i 1).val = (j 1).val) :
    k0_pay1 x0 x1 j = whole X W i := by
  obtain ⟨p, q, rfl⟩ : ∃ (p : Fin 5000) (q : Fin 256), j = ix2 p q := ⟨j 0, j 1, eq_ix2 j⟩
  obtain ⟨P, Q, rfl⟩ : ∃ (P : Fin 50000) (Q : Fin 256), i = ix2 P Q := ⟨i 0, i 1, eq_ix2 i⟩
  obtain rfl : Q = q := Fin.ext h1
  exact block_entry x0 x1 X W r hx0 hx1 p Q P h0

/-- The feature window's block at point `t` is rows `5000·t …` of the feature array as the region finds it. -/
theorem feature_block (c : Dev nD) (t : Fin cfg0.N) (p : Fin 5000) (P : Fin 50000) (k : Fin 128) (hP : P.val = 5000 * t.val + p.val) :
    (iblk0 V c 0 t : Vec Ideal S5000x128 .f32) (ix2 p k) = (V c main_arg0 : S50000x128.Idx → Elt Ideal .f32) (ix2 P k) := by
  obtain ⟨e00, e01, -, -, -, -, -⟩ := block_indices t
  unfold iblk0
  rw [View.read_apply]
  show V c main_arg0 _ = V c main_arg0 _
  congr 1
  funext a
  apply Fin.ext
  match a with
  | ⟨0, _⟩ => show win0_0.index t 0 * 5000 + 1 * p.val = P.val; rw [e00, hP]; omega
  | ⟨1, _⟩ => show win0_0.index t 1 * 128 + 1 * k.val = k.val; rw [e01]; omega

/-- The weight window's block is the weight matrix at every point. -/
theorem weight_block (c : Dev nD) (t : Fin cfg0.N) (k : Fin 128) (q : Fin 256) :
    (iblk0 V c 1 t : Vec Ideal S128x256 .f32) (ix2 k q) = (V c main_arg3 : S128x256.Idx → Elt Ideal .f32) (ix2 k q) := by
  obtain ⟨-, -, e10, e11, -, -, -⟩ := block_indices t
  unfold iblk0
  rw [View.read_apply]
  show V c main_arg3 _ = V c main_arg3 _
  congr 1
  funext a
  apply Fin.ext
  match a with
  | ⟨0, _⟩ => show win0_1.index t 0 * 128 + 1 * k.val = k.val; rw [e10]; omega
  | ⟨1, _⟩ => show win0_1.index t 1 * 256 + 1 * q.val = q.val; rw [e11]; omega

/-- What point `t` writes back is its block of the whole product. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x256) origin]
  obtain ⟨-, -, -, -, e20, e21, -⟩ := block_indices t
  funext j
  refine block_entry_at (iblk0 V c 0 t) (iblk0 V c 1 t) (V c main_arg0) (V c main_arg3) (5000 * t.val)
    (fun p P k hP => feature_block V c t p P k hP) (fun k q => weight_block V c t k q) j (((cfg0.win 2).blk t).view.emb j) ?_ ?_
  · show win0_2.index t 0 * 5000 + 1 * (j 0).val = 5000 * t.val + (j 0).val
    rw [e20]; omega
  · show win0_2.index t 1 * 256 + 1 * (j 1).val = (j 1).val
    rw [e21]; omega

/-- Every row of the output array lies in the block of the point that owns its row block. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, e20, e21, -⟩ := block_indices t
  have ht : t.val = (i 0).val / 5000 := rfl
  refine ⟨t, flush0_2 t, ?_⟩
  show i ∈ ((View.whole main_v34).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 256 ≤ (i 1).val ∧ (i 1).val < win0_2.index t (1 : Fin 2) * 256 + 256; rw [e21]; omega

/-- After the region its output array holds the product of the feature array and the weight matrix it was entered with. -/
theorem final (c : Dev nD) : (dat0 V c).arrAt 2 cfg0.N = whole (V c main_arg0) (V c main_arg3) :=
  (dat0 V c).arrAt_eq_of_cover 2 (whole (V c main_arg0) (V c main_arg3)) (fun t _ => flushed_eq V c t) (fun i => covered i)

end Cert.KernelIdeal.Dense1

end
-- ==== Proof.Bias1.lean ====
/-
  Layer 1's bias step: what the second grid region leaves in its output array.

  The region has ten grid points. Point `t` fetches rows `5000·t … 5000·t + 4999` of the `50000 × 256` aggregated array and the
  one-row `1 × 256` bias array, adds the bias row to every row of the block and clamps the sum below at the float zero, and writes the block
  back to the same rows of the output array. The step is entry by entry — `max (x[r, q] + b[0, q]) 0` — so each write-back is its
  block of ONE whole-array function, which is written here as the host spells it: the bias row broadcast over all rows, added,
  and the maximum with a broadcast zero constant. The ten blocks tile the rows, so after the region the output array is that function of
  the two arrays it was entered with — stated for whatever contents `V` the region is entered from.
-/
import proofs.«142243_j52939766890970_1_alg».proof.Proof.Gen.KernelIdeal.Frame
import proofs.«142243_j52939766890970_1_alg».proof.Proof.LibDenseEntries
import Idealize.ShloMosaic.Lib.Pipeline.Value

set_option maxRecDepth 16384

noncomputable section

namespace Cert.KernelIdeal.Bias1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at grid point `t`: the aggregated and output blocks at row block `t`, the bias
    row whole. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

theorem rows_fact : (⟨2, ![1, 256]⟩ : Shape).BroadcastsInDim ⟨2, ![50000, 256]⟩ (![0, 1] : Fin 2 → Fin 2) := by decide
theorem zero_fact : (⟨0, ![]⟩ : Shape).BroadcastsInDim ⟨2, ![50000, 256]⟩ (![] : Fin 0 → Fin 2) := by decide

/-- The bias step on the whole arrays, in the host's spelling: what the output array ends holding. -/
abbrev whole (X : FVec Ideal ⟨2, ![50000, 256]⟩ .f32) (R : FVec Ideal ⟨2, ![1, 256]⟩ .f32) : FVec Ideal ⟨2, ![50000, 256]⟩ .f32 :=
  maximumf (addf X (broadcastInDim ⟨2, ![50000, 256]⟩ ![0, 1] rows_fact R))
    (broadcastInDim ⟨2, ![50000, 256]⟩ ![] zero_fact (constant (F := Ideal) ⟨0, ![]⟩ .f32 0x00000000#32))

/-- The whole-array step at one entry. -/
theorem whole_apply (X : FVec Ideal ⟨2, ![50000, 256]⟩ .f32) (R : FVec Ideal ⟨2, ![1, 256]⟩ .f32) (P : Fin 50000) (q : Fin 256) :
    whole X R (ix2 P q) = max (X (ix2 P q) + R (ix2 (0 : Fin 1) q)) (Ideal.ofBits .f32 0x00000000#32) := by
  show max (X (ix2 P q) + broadcastInDim ⟨2, ![50000, 256]⟩ ![0, 1] rows_fact R (ix2 P q))
      (broadcastInDim ⟨2, ![50000, 256]⟩ ![] zero_fact (constant (F := Ideal) ⟨0, ![]⟩ .f32 0x00000000#32) (ix2 P q)) = _
  rw [Cert.Lib.DenseEntries.rows_of_row_apply, Cert.Lib.DenseEntries.host_zero_apply]

/-- A block's step at one entry. -/
theorem body_apply (x0 : Vec Ideal S5000x256 .f32) (x1 : Vec Ideal S1x256 .f32) (p : Fin 5000) (q : Fin 256) :
    k1_pay1 x0 x1 (ix2 p q) = max (x0 (ix2 p q) + x1 (ix2 (0 : Fin 1) q)) (Ideal.ofBits .f32 0x00000000#32) := by
  unfold k1_pay1
  show max (shapeCast S5000x256 x0 shapeCasts_S5000x256_S5000x256 (ix2 p q)
      + broadcastTo S5000x256 (shapeCast S1x256 x1 shapeCasts_S1x256_S1x256) broadcasts_S1x256_S5000x256 (ix2 p q))
    (Ideal.ofBits .f32 0x00000000#32) = _
  rw [shapeCast_self, shapeCast_self, broadcastTo_1b_ab_apply]

/-- An entry of a row block's step is the entry of the whole-array step in the block's row. -/
theorem block_entry_at (x0 : Vec Ideal S5000x256 .f32) (x1 : Vec Ideal S1x256 .f32)
    (X : FVec Ideal ⟨2, ![50000, 256]⟩ .f32) (R : FVec Ideal ⟨2, ![1, 256]⟩ .f32) (r : Nat)
    (hx0 : ∀ (p : Fin 5000) (P : Fin 50000) (q : Fin 256), P.val = r + p.val → x0 (ix2 p q) = X (ix2 P q))
    (hx1 : ∀ (q : Fin 256), x1 (ix2 (0 : Fin 1) q) = R (ix2 (0 : Fin 1) q))
    (j : S5000x256.Idx) (i : S50000x256.Idx) (h0 : (i 0).val = r + (j 0).val) (h1 : (i 1).val = (j 1).val) :
    k1_pay1 x0 x1 j = whole X R i := by
  obtain ⟨p, q, rfl⟩ : ∃ (p : Fin 5000) (q : Fin 256), j = ix2 p q := ⟨j 0, j 1, eq_ix2 j⟩
  obtain ⟨P, Q, rfl⟩ : ∃ (P : Fin 50000) (Q : Fin 256), i = ix2 P Q := ⟨i 0, i 1, eq_ix2 i⟩
  obtain rfl : Q = q := Fin.ext h1
  rw [body_apply, whole_apply, hx0 p P Q h0, hx1 Q]

/-- The aggregated window's block at point `t` is rows `5000·t …` of the aggregated array as the region finds it. -/
theorem rows_block (c : Dev nD) (t : Fin cfg1.N) (p : Fin 5000) (P : Fin 50000) (q : Fin 256) (hP : P.val = 5000 * t.val + p.val) :
    (iblk1 V c 0 t : Vec Ideal S5000x256 .f32) (ix2 p q) = (V c main_v47 : S50000x256.Idx → Elt Ideal .f32) (ix2 P q) := by
  obtain ⟨e00, e01, -, -, -, -, -⟩ := block_indices t
  unfold iblk1
  rw [View.read_apply]
  show V c main_v47 _ = V c main_v47 _
  congr 1
  funext a
  apply Fin.ext
  match a with
  | ⟨0, _⟩ => show win1_0.index t 0 * 5000 + 1 * p.val = P.val; rw [e00, hP]; omega
  | ⟨1, _⟩ => show win1_0.index t 1 * 256 + 1 * q.val = q.val; rw [e01]; omega

/-- The bias window's block is the bias row at every point. -/
theorem bias_block (c : Dev nD) (t : Fin cfg1.N) (q : Fin 256) :
    (iblk1 V c 1 t : Vec Ideal S1x256 .f32) (ix2 (0 : Fin 1) q) = (V c main_v48 : S1x256.Idx → Elt Ideal .f32) (ix2 (0 : Fin 1) q) := by
  obtain ⟨-, -, e10, e11, -, -, -⟩ := block_indices t
  unfold iblk1
  rw [View.read_apply]
  show V c main_v48 _ = V c main_v48 _
  congr 1
  funext a
  apply Fin.ext
  match a with
  | ⟨0, _⟩ => show win1_1.index t 0 * 1 + 1 * 0 = 0; rw [e10]
  | ⟨1, _⟩ => show win1_1.index t 1 * 256 + 1 * q.val = q.val; rw [e11]; omega

/-- What point `t` writes back is its block of the whole-array step. -/
theorem flushed_eq (c : Dev nD) (t : Fin cfg1.N) :
    (dat1 V c).flushed 2 t = ((cfg1.win 2).blk t).view.read (Elt Ideal) (whole (V c main_v47) (V c main_v48)) := by
  show (cfg1.win 2).cut (grid1.coords t) ((dat1 V c).after 2 t) = _
  rw [after1_2]
  unfold out1_2
  rw [View.canon_unit_zero origin]
  simp only [View.ld_unit_zero (S := S5000x256) origin, View.ld_unit_zero (S := S1x256) origin]
  obtain ⟨-, -, -, -, e20, e21, -⟩ := block_indices t
  funext j
  refine block_entry_at (iblk1 V c 0 t) (iblk1 V c 1 t) (V c main_v47) (V c main_v48) (5000 * t.val)
    (fun p P q hP => rows_block V c t p P q hP) (fun q => bias_block V c t q) j (((cfg1.win 2).blk t).view.emb j) ?_ ?_
  · show win1_2.index t 0 * 5000 + 1 * (j 0).val = 5000 * t.val + (j 0).val
    rw [e20]; omega
  · show win1_2.index t 1 * 256 + 1 * (j 1).val = (j 1).val
    rw [e21]; omega

/-- Every row of the output array lies in the block of the point that owns its row block. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  obtain ⟨-, -, -, -, e20, e21, -⟩ := block_indices t
  have ht : t.val = (i 0).val / 5000 := rfl
  refine ⟨t, flush1_2 t, ?_⟩
  show i ∈ ((View.whole main_v49).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; rw [e20, ht]; omega
  | ⟨1, _⟩ => show win1_2.index t (1 : Fin 2) * 256 ≤ (i 1).val ∧ (i 1).val < win1_2.index t (1 : Fin 2) * 256 + 256; rw [e21]; omega

/-- After the region its output array holds the bias step of the two arrays it was entered with. -/
theorem final (c : Dev nD) : (dat1 V c).arrAt 2 cfg1.N = whole (V c main_v47) (V c main_v48) :=
  (dat1 V c).arrAt_eq_of_cover 2 (whole (V c main_v47) (V c main_v48)) (fun t _ => flushed_eq V c t) (fun i => covered i)

end Cert.KernelIdeal.Bias1

end
-- ==== Proof.Layer1.lean ====
/-
  Layer 1 of the kernel's run is layer 1 of the reference.

  The layer is three steps. The first region multiplies the node features by the first weight matrix; a stretch of host
  operations gathers the product's rows along the edges' source rows, scales each by its edge's normalisation factor and
  adds them up by destination row, and casts the bias vector to a row; the second region adds that row to every node's
  row and clamps below at zero. The two regions leave the host's own product and bias step of what they were entered with (the
  region modules); the stretch is read off the program. With the shared arrays and the arguments carried to this layer's
  segments, each buffer is the reference's stage of the launch arguments, operation for operation — except that the
  kernel casts the bias vector to a row where the reference broadcasts it, and the two rows are the same array.
-/
import proofs.«142243_j52939766890970_1_alg».proof.Proof.Gen.KernelIdeal.Frame
import proofs.«142243_j52939766890970_1_alg».proof.Proof.Gen.ReferenceIdeal.Read
import proofs.«142243_j52939766890970_1_alg».proof.Proof.LibReadLine
import proofs.«142243_j52939766890970_1_alg».proof.Proof.Carry
import proofs.«142243_j52939766890970_1_alg».proof.Proof.Dense1
import proofs.«142243_j52939766890970_1_alg».proof.Proof.Bias1
import proofs.«142243_j52939766890970_1_alg».proof.Proof.LibDenseEntries

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Lib.ReadLine

variable (m : (ℓ : Loc nD τ sig) → Buf (Elt Ideal) ℓ) (ρ : Dev nD → PrngReg)

theorem row_fact256 : (⟨1, ![256]⟩ : Shape).BroadcastsInDim ⟨2, ![1, 256]⟩ (![1] : Fin 1 → Fin 2) := by decide
theorem row_fact128 : (⟨1, ![128]⟩ : Shape).BroadcastsInDim ⟨2, ![1, 128]⟩ (![1] : Fin 1 → Fin 2) := by decide

/-- The layer's product, after the first region. -/
theorem dense1_out (c : Dev nD) :
    W5 m ρ c (Proc.devRef .tc main_v34) = Cert.ReferenceIdeal.Read.val_main_v34 (F := Ideal) (m ((c.tc : Thread nD τ).loc main_arg0)) (m ((c.tc : Thread nD τ).loc main_arg3)) := by
  refine (W5_arr m ρ c 2).trans ((Cert.KernelIdeal.Dense1.final (V4 m ρ) c).trans ?_)
  show Cert.KernelIdeal.Dense1.whole (W4 m ρ c (Proc.devRef .tc main_arg0)) (W4 m ρ c (Proc.devRef .tc main_arg3)) = _
  rw [entry_arg0 m ρ c, entry_arg3 m ρ c]
  rfl

set_option maxHeartbeats 4000000 in
/-- The layer's aggregation, after the stretch between the two regions. -/
theorem agg1 (c : Dev nD) :
    W6 m ρ c (Proc.devRef .tc main_v47) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) := by
  show after hostOps1 (W5 m ρ c) (Proc.devRef .tc main_v47) = _
  read_line
  rw [dense1_out m ρ c, at5_v6 m ρ c, at5_v7 m ρ c, at5_v33 m ρ c]
  rfl

/-- The layer's bias as a row, after the same stretch: the kernel casts the vector to `[1, 256]`, the reference
    broadcasts it there, and the two rows are one array. -/
theorem row1 (c : Dev nD) :
    W6 m ρ c (Proc.devRef .tc main_v48) = Cert.ReferenceIdeal.Read.val_main_v48 (F := Ideal) (m ((c.tc : Thread nD τ).loc main_arg4)) := by
  show after hostOps1 (W5 m ρ c) (Proc.devRef .tc main_v48) = _
  read_line
  rw [at5_arg4 m ρ c]
  exact Cert.Lib.DenseEntries.row_cast_eq (N := 256) (m ((c.tc : Thread nD τ).loc main_arg4)) shapeCasts_S256_S1x256 row_fact256

/-- The layer's output, after the second region. -/
theorem layer1_out (c : Dev nD) :
    W7 m ρ c (Proc.devRef .tc main_v49) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((Cert.KernelIdeal.Bias1.final (V6 m ρ) c).trans ?_)
  show Cert.KernelIdeal.Bias1.whole (W6 m ρ c (Proc.devRef .tc main_v47)) (W6 m ρ c (Proc.devRef .tc main_v48)) = _
  rw [agg1 m ρ c, row1 m ρ c]
  rfl

end Cert.KernelIdeal.Chain

end
-- ==== Proof.Dense2.lean ====
/-
  Layer 2's dense transform: what the third grid region leaves in its output array.

  The region has ten grid points. Point `t` fetches rows `5000·t … 5000·t + 4999` of the `50000 × 256` feature array and the
  whole `256 × 256` weight matrix, multiplies them (both rounded to bf16 first, accumulated from zero), and writes the
  `5000 × 256` product back to rows `5000·t …` of the output array. Over the extended reals a rounding is the identity and
  the product of a row block is the row block of the product, so each write-back is its block of ONE whole-array function:
  the host's `dot_general` of the feature array with the weight matrix (entry `(r, q)` is `∑ k, x[r, k] · w[k, q]` in both).
  The ten blocks tile the rows, so after the region the output array is that product — stated for whatever contents `V`
  the region is entered from.
-/
import proofs.«142243_j52939766890970_1_alg».proof.Proof.Gen.KernelIdeal.Frame
import proofs.«142243_j52939766890970_1_alg».proof.Proof.LibDenseEntries
import Idealize.ShloMosaic.Lib.Pipeline.Value

set_option maxRecDepth 16384

noncomputable section

open scoped BigOperators

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at grid point `t`: the feature and output blocks at row block `t`, the weight
    matrix whole. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The product of the whole arrays: what the output array ends holding. -/
abbrev whole (X : FVec Ideal ⟨2, ![50000, 256]⟩ .f32) (W : FVec Ideal ⟨2, ![256, 256]⟩ .f32) : FVec Ideal ⟨2, ![50000, 256]⟩ .f32 :=
  Host.dotGeneral (F := Ideal) (DotDims.plain 50000 256 256) none X W

/-- An entry of a row block's product is the entry of the whole product in the block's row: both are the sum over `k` of
    a feature row's entries times a weight column's. -/
theorem block_entry (x0 : Vec Ideal S5000x256 .f32) (x1 : Vec Ideal S256x256 .f32)
    (X : FVec Ideal ⟨2, ![50000, 256]⟩ .f32) (W : FVec Ideal ⟨2, ![256, 256]⟩ .f32) (r : Nat)
    (hx0 : ∀ (p : Fin 5000) (P : Fin 50000) (k : Fin 256), P.val = r + p.val → x0 (ix2 p k) = X (ix2 P k))
    (hx1 : ∀ (k : Fin 256) (q : Fin 256), x1 (ix2 k q) = W (ix2 k q))
    (p : Fin 5000) (q : Fin 256) (P : Fin 50000) (hP : P.val = r + p.val) :
    k2_pay1 x0 x1 (ix2 p q) = whole X W (ix2 P q) := by
  unfold k2_pay1
  rw [shapeCast_self]
  refine (Cert.Lib.DenseEntries.body_product_apply _ rfl x0 x1 _ _ p q).trans ?_
  refine ((Cert.Lib.DenseEntries.host_product_apply _ rfl X W P q).trans ?_).symm
  exact Finset.sum_congr rfl fun k _ => by rw [hx0 p P k hP, hx1 k q]

/-- The same at any index `j` of the block and the index `i` of the array it is written to: row `r + j₀`, the same column. -/
theorem block_entry_at (x0 : Vec Ideal S5000x256 .f32) (x1 : Vec Ideal S256x256 .f32)
    (X : FVec Ideal ⟨2, ![50000, 256]⟩ .f32) (W : FVec Ideal ⟨2, ![256, 256]⟩ .f32) (r : Nat)
    (hx0 : ∀ (p : Fin 5000) (P : Fin 50000) (k : Fin 256), P.val = r + p.val → x0 (ix2 p k) = X (ix2 P k))
    (hx1 : ∀ (k : Fin 256) (q : Fin 256), x1 (ix2 k q) = W (ix2 k q))
    (j : S5000x256.Idx) (i : S50000x256.Idx) (h0 : (i 0).val = r + (j 0).val) (h1 : (i 1).val = (j 1).val) :
    k2_pay1 x0 x1 j = whole X W i := by
  obtain ⟨p, q, rfl⟩ : ∃ (p : Fin 5000) (q : Fin 256), j = ix2 p q := ⟨j 0, j 1, eq_ix2 j⟩
  obtain ⟨P, Q, rfl⟩ : ∃ (P : Fin 50000) (Q : Fin 256), i = ix2 P Q := ⟨i 0, i 1, eq_ix2 i⟩
  obtain rfl : Q = q := Fin.ext h1
  exact block_entry x0 x1 X W r hx0 hx1 p Q P h0

/-- The feature window's block at point `t` is rows `5000·t …` of the feature array as the region finds it. -/
theorem feature_block (c : Dev nD) (t : Fin cfg2.N) (p : Fin 5000) (P : Fin 50000) (k : Fin 256) (hP : P.val = 5000 * t.val + p.val) :
    (iblk2 V c 0 t : Vec Ideal S5000x256 .f32) (ix2 p k) = (V c main_v49 : S50000x256.Idx → Elt Ideal .f32) (ix2 P k) := by
  obtain ⟨e00, e01, -, -, -, -, -⟩ := block_indices t
  unfold iblk2
  rw [View.read_apply]
  show V c main_v49 _ = V c main_v49 _
  congr 1
  funext a
  apply Fin.ext
  match a with
  | ⟨0, _⟩ => show win2_0.index t 0 * 5000 + 1 * p.val = P.val; rw [e00, hP]; omega
  | ⟨1, _⟩ => show win2_0.index t 1 * 256 + 1 * k.val = k.val; rw [e01]; omega

/-- The weight window's block is the weight matrix at every point. -/
theorem weight_block (c : Dev nD) (t : Fin cfg2.N) (k : Fin 256) (q : Fin 256) :
    (iblk2 V c 1 t : Vec Ideal S256x256 .f32) (ix2 k q) = (V c main_arg5 : S256x256.Idx → Elt Ideal .f32) (ix2 k q) := by
  obtain ⟨-, -, e10, e11, -, -, -⟩ := block_indices t
  unfold iblk2
  rw [View.read_apply]
  show V c main_arg5 _ = V c main_arg5 _
  congr 1
  funext a
  apply Fin.ext
  match a with
  | ⟨0, _⟩ => show win2_1.index t 0 * 256 + 1 * k.val = k.val; rw [e10]; omega
  | ⟨1, _⟩ => show win2_1.index t 1 * 256 + 1 * q.val = q.val; rw [e11]; omega

/-- What point `t` writes back is its block of the whole product. -/
theorem flushed_eq (c : Dev nD) (t : Fin cfg2.N) :
    (dat2 V c).flushed 2 t = ((cfg2.win 2).blk t).view.read (Elt Ideal) (whole (V c main_v49) (V c main_arg5)) := by
  show (cfg2.win 2).cut (grid2.coords t) ((dat2 V c).after 2 t) = _
  rw [after2_2]
  unfold out2_2
  rw [View.canon_unit_zero origin]
  simp only [View.ld_unit_zero (S := S5000x256) origin, View.ld_unit_zero (S := S256x256) origin]
  obtain ⟨-, -, -, -, e20, e21, -⟩ := block_indices t
  funext j
  refine block_entry_at (iblk2 V c 0 t) (iblk2 V c 1 t) (V c main_v49) (V c main_arg5) (5000 * t.val)
    (fun p P k hP => feature_block V c t p P k hP) (fun k q => weight_block V c t k q) j (((cfg2.win 2).blk t).view.emb j) ?_ ?_
  · show win2_2.index t 0 * 5000 + 1 * (j 0).val = 5000 * t.val + (j 0).val
    rw [e20]; omega
  · show win2_2.index t 1 * 256 + 1 * (j 1).val = (j 1).val
    rw [e21]; omega

/-- Every row of the output array lies in the block of the point that owns its row block. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  let t : Fin cfg2.N := ⟨(i 0).val / 5000, by rw [hN]; omega⟩
  obtain ⟨-, -, -, -, e20, e21, -⟩ := block_indices t
  have ht : t.val = (i 0).val / 5000 := rfl
  refine ⟨t, flush2_2 t, ?_⟩
  show i ∈ ((View.whole main_v50).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; rw [e20, ht]; omega
  | ⟨1, _⟩ => show win2_2.index t (1 : Fin 2) * 256 ≤ (i 1).val ∧ (i 1).val < win2_2.index t (1 : Fin 2) * 256 + 256; rw [e21]; omega

/-- After the region its output array holds the product of the feature array and the weight matrix it was entered with. -/
theorem final (c : Dev nD) : (dat2 V c).arrAt 2 cfg2.N = whole (V c main_v49) (V c main_arg5) :=
  (dat2 V c).arrAt_eq_of_cover 2 (whole (V c main_v49) (V c main_arg5)) (fun t _ => flushed_eq V c t) (fun i => covered i)

end Cert.KernelIdeal.Dense2

end
-- ==== Proof.Bias2.lean ====
/-
  Layer 2's bias step: what the fourth grid region leaves in its output array.

  The region has ten grid points. Point `t` fetches rows `5000·t … 5000·t + 4999` of the `50000 × 256` aggregated array and the
  one-row `1 × 256` bias array, adds the bias row to every row of the block and clamps the sum below at the float zero, and writes the block
  back to the same rows of the output array. The step is entry by entry — `max (x[r, q] + b[0, q]) 0` — so each write-back is its
  block of ONE whole-array function, which is written here as the host spells it: the bias row broadcast over all rows, added,
  and the maximum with a broadcast zero constant. The ten blocks tile the rows, so after the region the output array is that function of
  the two arrays it was entered with — stated for whatever contents `V` the region is entered from.
-/
import proofs.«142243_j52939766890970_1_alg».proof.Proof.Gen.KernelIdeal.Frame
import proofs.«142243_j52939766890970_1_alg».proof.Proof.LibDenseEntries
import Idealize.ShloMosaic.Lib.Pipeline.Value

set_option maxRecDepth 16384

noncomputable section

namespace Cert.KernelIdeal.Bias2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at grid point `t`: the aggregated and output blocks at row block `t`, the bias
    row whole. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

theorem rows_fact : (⟨2, ![1, 256]⟩ : Shape).BroadcastsInDim ⟨2, ![50000, 256]⟩ (![0, 1] : Fin 2 → Fin 2) := by decide
theorem zero_fact : (⟨0, ![]⟩ : Shape).BroadcastsInDim ⟨2, ![50000, 256]⟩ (![] : Fin 0 → Fin 2) := by decide

/-- The bias step on the whole arrays, in the host's spelling: what the output array ends holding. -/
abbrev whole (X : FVec Ideal ⟨2, ![50000, 256]⟩ .f32) (R : FVec Ideal ⟨2, ![1, 256]⟩ .f32) : FVec Ideal ⟨2, ![50000, 256]⟩ .f32 :=
  maximumf (addf X (broadcastInDim ⟨2, ![50000, 256]⟩ ![0, 1] rows_fact R))
    (broadcastInDim ⟨2, ![50000, 256]⟩ ![] zero_fact (constant (F := Ideal) ⟨0, ![]⟩ .f32 0x00000000#32))

/-- The whole-array step at one entry. -/
theorem whole_apply (X : FVec Ideal ⟨2, ![50000, 256]⟩ .f32) (R : FVec Ideal ⟨2, ![1, 256]⟩ .f32) (P : Fin 50000) (q : Fin 256) :
    whole X R (ix2 P q) = max (X (ix2 P q) + R (ix2 (0 : Fin 1) q)) (Ideal.ofBits .f32 0x00000000#32) := by
  show max (X (ix2 P q) + broadcastInDim ⟨2, ![50000, 256]⟩ ![0, 1] rows_fact R (ix2 P q))
      (broadcastInDim ⟨2, ![50000, 256]⟩ ![] zero_fact (constant (F := Ideal) ⟨0, ![]⟩ .f32 0x00000000#32) (ix2 P q)) = _
  rw [Cert.Lib.DenseEntries.rows_of_row_apply, Cert.Lib.DenseEntries.host_zero_apply]

/-- A block's step at one entry. -/
theorem body_apply (x0 : Vec Ideal S5000x256 .f32) (x1 : Vec Ideal S1x256 .f32) (p : Fin 5000) (q : Fin 256) :
    k3_pay1 x0 x1 (ix2 p q) = max (x0 (ix2 p q) + x1 (ix2 (0 : Fin 1) q)) (Ideal.ofBits .f32 0x00000000#32) := by
  unfold k3_pay1
  show max (shapeCast S5000x256 x0 shapeCasts_S5000x256_S5000x256 (ix2 p q)
      + broadcastTo S5000x256 (shapeCast S1x256 x1 shapeCasts_S1x256_S1x256) broadcasts_S1x256_S5000x256 (ix2 p q))
    (Ideal.ofBits .f32 0x00000000#32) = _
  rw [shapeCast_self, shapeCast_self, broadcastTo_1b_ab_apply]

/-- An entry of a row block's step is the entry of the whole-array step in the block's row. -/
theorem block_entry_at (x0 : Vec Ideal S5000x256 .f32) (x1 : Vec Ideal S1x256 .f32)
    (X : FVec Ideal ⟨2, ![50000, 256]⟩ .f32) (R : FVec Ideal ⟨2, ![1, 256]⟩ .f32) (r : Nat)
    (hx0 : ∀ (p : Fin 5000) (P : Fin 50000) (q : Fin 256), P.val = r + p.val → x0 (ix2 p q) = X (ix2 P q))
    (hx1 : ∀ (q : Fin 256), x1 (ix2 (0 : Fin 1) q) = R (ix2 (0 : Fin 1) q))
    (j : S5000x256.Idx) (i : S50000x256.Idx) (h0 : (i 0).val = r + (j 0).val) (h1 : (i 1).val = (j 1).val) :
    k3_pay1 x0 x1 j = whole X R i := by
  obtain ⟨p, q, rfl⟩ : ∃ (p : Fin 5000) (q : Fin 256), j = ix2 p q := ⟨j 0, j 1, eq_ix2 j⟩
  obtain ⟨P, Q, rfl⟩ : ∃ (P : Fin 50000) (Q : Fin 256), i = ix2 P Q := ⟨i 0, i 1, eq_ix2 i⟩
  obtain rfl : Q = q := Fin.ext h1
  rw [body_apply, whole_apply, hx0 p P Q h0, hx1 Q]

/-- The aggregated window's block at point `t` is rows `5000·t …` of the aggregated array as the region finds it. -/
theorem rows_block (c : Dev nD) (t : Fin cfg3.N) (p : Fin 5000) (P : Fin 50000) (q : Fin 256) (hP : P.val = 5000 * t.val + p.val) :
    (iblk3 V c 0 t : Vec Ideal S5000x256 .f32) (ix2 p q) = (V c main_v63 : S50000x256.Idx → Elt Ideal .f32) (ix2 P q) := by
  obtain ⟨e00, e01, -, -, -, -, -⟩ := block_indices t
  unfold iblk3
  rw [View.read_apply]
  show V c main_v63 _ = V c main_v63 _
  congr 1
  funext a
  apply Fin.ext
  match a with
  | ⟨0, _⟩ => show win3_0.index t 0 * 5000 + 1 * p.val = P.val; rw [e00, hP]; omega
  | ⟨1, _⟩ => show win3_0.index t 1 * 256 + 1 * q.val = q.val; rw [e01]; omega

/-- The bias window's block is the bias row at every point. -/
theorem bias_block (c : Dev nD) (t : Fin cfg3.N) (q : Fin 256) :
    (iblk3 V c 1 t : Vec Ideal S1x256 .f32) (ix2 (0 : Fin 1) q) = (V c main_v64 : S1x256.Idx → Elt Ideal .f32) (ix2 (0 : Fin 1) q) := by
  obtain ⟨-, -, e10, e11, -, -, -⟩ := block_indices t
  unfold iblk3
  rw [View.read_apply]
  show V c main_v64 _ = V c main_v64 _
  congr 1
  funext a
  apply Fin.ext
  match a with
  | ⟨0, _⟩ => show win3_1.index t 0 * 1 + 1 * 0 = 0; rw [e10]
  | ⟨1, _⟩ => show win3_1.index t 1 * 256 + 1 * q.val = q.val; rw [e11]; omega

/-- What point `t` writes back is its block of the whole-array step. -/
theorem flushed_eq (c : Dev nD) (t : Fin cfg3.N) :
    (dat3 V c).flushed 2 t = ((cfg3.win 2).blk t).view.read (Elt Ideal) (whole (V c main_v63) (V c main_v64)) := by
  show (cfg3.win 2).cut (grid3.coords t) ((dat3 V c).after 2 t) = _
  rw [after3_2]
  unfold out3_2
  rw [View.canon_unit_zero origin]
  simp only [View.ld_unit_zero (S := S5000x256) origin, View.ld_unit_zero (S := S1x256) origin]
  obtain ⟨-, -, -, -, e20, e21, -⟩ := block_indices t
  funext j
  refine block_entry_at (iblk3 V c 0 t) (iblk3 V c 1 t) (V c main_v63) (V c main_v64) (5000 * t.val)
    (fun p P q hP => rows_block V c t p P q hP) (fun q => bias_block V c t q) j (((cfg3.win 2).blk t).view.emb j) ?_ ?_
  · show win3_2.index t 0 * 5000 + 1 * (j 0).val = 5000 * t.val + (j 0).val
    rw [e20]; omega
  · show win3_2.index t 1 * 256 + 1 * (j 1).val = (j 1).val
    rw [e21]; omega

/-- Every row of the output array lies in the block of the point that owns its row block. -/
theorem covered (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 10 := N_3
  let t : Fin cfg3.N := ⟨(i 0).val / 5000, by rw [hN]; omega⟩
  obtain ⟨-, -, -, -, e20, e21, -⟩ := block_indices t
  have ht : t.val = (i 0).val / 5000 := rfl
  refine ⟨t, flush3_2 t, ?_⟩
  show i ∈ ((View.whole main_v65).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000; rw [e20, ht]; omega
  | ⟨1, _⟩ => show win3_2.index t (1 : Fin 2) * 256 ≤ (i 1).val ∧ (i 1).val < win3_2.index t (1 : Fin 2) * 256 + 256; rw [e21]; omega

/-- After the region its output array holds the bias step of the two arrays it was entered with. -/
theorem final (c : Dev nD) : (dat3 V c).arrAt 2 cfg3.N = whole (V c main_v63) (V c main_v64) :=
  (dat3 V c).arrAt_eq_of_cover 2 (whole (V c main_v63) (V c main_v64)) (fun t _ => flushed_eq V c t) (fun i => covered i)

end Cert.KernelIdeal.Bias2

end
-- ==== Proof.Layer2.lean ====
/-
  Layer 2 of the kernel's run is layer 2 of the reference.

  The layer is three steps. The third region multiplies the previous layer's output by the layer's weight matrix; a stretch of host
  operations gathers the product's rows along the edges' source rows, scales each by its edge's normalisation factor and
  adds them up by destination row, and casts the bias vector to a row; the fourth region adds that row to every node's
  row and clamps below at zero. The two regions leave the host's own product and bias step of what they were entered with (the
  region modules); the stretch is read off the program. With the shared arrays and the arguments carried to this layer's
  segments, each buffer is the reference's stage of the launch arguments, operation for operation.
-/
import proofs.«142243_j52939766890970_1_alg».proof.Proof.Gen.KernelIdeal.Frame
import proofs.«142243_j52939766890970_1_alg».proof.Proof.Gen.ReferenceIdeal.Read
import proofs.«142243_j52939766890970_1_alg».proof.Proof.LibReadLine
import proofs.«142243_j52939766890970_1_alg».proof.Proof.Layer1
import proofs.«142243_j52939766890970_1_alg».proof.Proof.Dense2
import proofs.«142243_j52939766890970_1_alg».proof.Proof.Bias2
import proofs.«142243_j52939766890970_1_alg».proof.Proof.LibDenseEntries

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Lib.ReadLine

variable (m : (ℓ : Loc nD τ sig) → Buf (Elt Ideal) ℓ) (ρ : Dev nD → PrngReg)

/-- The layer's product, after the third region. -/
theorem dense2_out (c : Dev nD) :
    W8 m ρ c (Proc.devRef .tc main_v50) = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ((Cert.KernelIdeal.Dense2.final (V7 m ρ) c).trans ?_)
  show Cert.KernelIdeal.Dense2.whole (W7 m ρ c (Proc.devRef .tc main_v49)) (W7 m ρ c (Proc.devRef .tc main_arg5)) = _
  rw [layer1_out m ρ c, at7_arg5 m ρ c]
  rfl

set_option maxHeartbeats 4000000 in
/-- The layer's aggregation, after the stretch between the two regions. -/
theorem agg2 (c : Dev nD) :
    W9 m ρ c (Proc.devRef .tc main_v63) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after hostOps3 (W8 m ρ c) (Proc.devRef .tc main_v63) = _
  read_line
  rw [dense2_out m ρ c, at8_v6 m ρ c, at8_v7 m ρ c, at8_v33 m ρ c]
  rfl

/-- The layer's bias as a row, after the same stretch: the kernel casts the vector to `[1, 256]`, the reference
    broadcasts it there, and the two rows are one array. -/
theorem row2 (c : Dev nD) :
    W9 m ρ c (Proc.devRef .tc main_v64) = Cert.ReferenceIdeal.Read.val_main_v66 (F := Ideal) (m ((c.tc : Thread nD τ).loc main_arg6)) := by
  show after hostOps3 (W8 m ρ c) (Proc.devRef .tc main_v64) = _
  read_line
  rw [at8_arg6 m ρ c]
  exact Cert.Lib.DenseEntries.row_cast_eq (N := 256) (m ((c.tc : Thread nD τ).loc main_arg6)) shapeCasts_S256_S1x256 row_fact256

/-- The layer's output, after the fourth region. -/
theorem layer2_out (c : Dev nD) :
    W10 m ρ c (Proc.devRef .tc main_v65) = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 2).trans ((Cert.KernelIdeal.Bias2.final (V9 m ρ) c).trans ?_)
  show Cert.KernelIdeal.Bias2.whole (W9 m ρ c (Proc.devRef .tc main_v63)) (W9 m ρ c (Proc.devRef .tc main_v64)) = _
  rw [agg2 m ρ c, row2 m ρ c]
  rfl

end Cert.KernelIdeal.Chain

end
-- ==== Proof.Dense3.lean ====
/-
  Layer 3's dense transform: what the fifth grid region leaves in its output array.

  The region has ten grid points. Point `t` fetches rows `5000·t … 5000·t + 4999` of the `50000 × 256` feature array and the
  whole `256 × 128` weight matrix, multiplies them (both rounded to bf16 first, accumulated from zero), and writes the
  `5000 × 128` product back to rows `5000·t …` of the output array. Over the extended reals a rounding is the identity and
  the product of a row block is the row block of the product, so each write-back is its block of ONE whole-array function:
  the host's `dot_general` of the feature array with the weight matrix (entry `(r, q)` is `∑ k, x[r, k] · w[k, q]` in both).
  The ten blocks tile the rows, so after the region the output array is that product — stated for whatever contents `V`
  the region is entered from.
-/
import proofs.«142243_j52939766890970_1_alg».proof.Proof.Gen.KernelIdeal.Frame
import proofs.«142243_j52939766890970_1_alg».proof.Proof.LibDenseEntries
import Idealize.ShloMosaic.Lib.Pipeline.Value

set_option maxRecDepth 16384

noncomputable section

open scoped BigOperators

namespace Cert.KernelIdeal.Dense3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at grid point `t`: the feature and output blocks at row block `t`, the weight
    matrix whole. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- The product of the whole arrays: what the output array ends holding. -/
abbrev whole (X : FVec Ideal ⟨2, ![50000, 256]⟩ .f32) (W : FVec Ideal ⟨2, ![256, 128]⟩ .f32) : FVec Ideal ⟨2, ![50000, 128]⟩ .f32 :=
  Host.dotGeneral (F := Ideal) (DotDims.plain 50000 256 128) none X W

/-- An entry of a row block's product is the entry of the whole product in the block's row: both are the sum over `k` of
    a feature row's entries times a weight column's. -/
theorem block_entry (x0 : Vec Ideal S5000x256 .f32) (x1 : Vec Ideal S256x128 .f32)
    (X : FVec Ideal ⟨2, ![50000, 256]⟩ .f32) (W : FVec Ideal ⟨2, ![256, 128]⟩ .f32) (r : Nat)
    (hx0 : ∀ (p : Fin 5000) (P : Fin 50000) (k : Fin 256), P.val = r + p.val → x0 (ix2 p k) = X (ix2 P k))
    (hx1 : ∀ (k : Fin 256) (q : Fin 128), x1 (ix2 k q) = W (ix2 k q))
    (p : Fin 5000) (q : Fin 128) (P : Fin 50000) (hP : P.val = r + p.val) :
    k4_pay1 x0 x1 (ix2 p q) = whole X W (ix2 P q) := by
  unfold k4_pay1
  rw [shapeCast_self]
  refine (Cert.Lib.DenseEntries.body_product_apply _ rfl x0 x1 _ _ p q).trans ?_
  refine ((Cert.Lib.DenseEntries.host_product_apply _ rfl X W P q).trans ?_).symm
  exact Finset.sum_congr rfl fun k _ => by rw [hx0 p P k hP, hx1 k q]

/-- The same at any index `j` of the block and the index `i` of the array it is written to: row `r + j₀`, the same column. -/
theorem block_entry_at (x0 : Vec Ideal S5000x256 .f32) (x1 : Vec Ideal S256x128 .f32)
    (X : FVec Ideal ⟨2, ![50000, 256]⟩ .f32) (W : FVec Ideal ⟨2, ![256, 128]⟩ .f32) (r : Nat)
    (hx0 : ∀ (p : Fin 5000) (P : Fin 50000) (k : Fin 256), P.val = r + p.val → x0 (ix2 p k) = X (ix2 P k))
    (hx1 : ∀ (k : Fin 256) (q : Fin 128), x1 (ix2 k q) = W (ix2 k q))
    (j : S5000x128.Idx) (i : S50000x128.Idx) (h0 : (i 0).val = r + (j 0).val) (h1 : (i 1).val = (j 1).val) :
    k4_pay1 x0 x1 j = whole X W i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext h1
  exact block_entry x0 x1 X W r hx0 hx1 p Q P h0

/-- The feature window's block at point `t` is rows `5000·t …` of the feature array as the region finds it. -/
theorem feature_block (c : Dev nD) (t : Fin cfg4.N) (p : Fin 5000) (P : Fin 50000) (k : Fin 256) (hP : P.val = 5000 * t.val + p.val) :
    (iblk4 V c 0 t : Vec Ideal S5000x256 .f32) (ix2 p k) = (V c main_v65 : S50000x256.Idx → Elt Ideal .f32) (ix2 P k) := by
  obtain ⟨e00, e01, -, -, -, -, -⟩ := block_indices t
  unfold iblk4
  rw [View.read_apply]
  show V c main_v65 _ = V c main_v65 _
  congr 1
  funext a
  apply Fin.ext
  match a with
  | ⟨0, _⟩ => show win4_0.index t 0 * 5000 + 1 * p.val = P.val; rw [e00, hP]; omega
  | ⟨1, _⟩ => show win4_0.index t 1 * 256 + 1 * k.val = k.val; rw [e01]; omega

/-- The weight window's block is the weight matrix at every point. -/
theorem weight_block (c : Dev nD) (t : Fin cfg4.N) (k : Fin 256) (q : Fin 128) :
    (iblk4 V c 1 t : Vec Ideal S256x128 .f32) (ix2 k q) = (V c main_arg7 : S256x128.Idx → Elt Ideal .f32) (ix2 k q) := by
  obtain ⟨-, -, e10, e11, -, -, -⟩ := block_indices t
  unfold iblk4
  rw [View.read_apply]
  show V c main_arg7 _ = V c main_arg7 _
  congr 1
  funext a
  apply Fin.ext
  match a with
  | ⟨0, _⟩ => show win4_1.index t 0 * 256 + 1 * k.val = k.val; rw [e10]; omega
  | ⟨1, _⟩ => show win4_1.index t 1 * 128 + 1 * q.val = q.val; rw [e11]; omega

/-- What point `t` writes back is its block of the whole product. -/
theorem flushed_eq (c : Dev nD) (t : Fin cfg4.N) :
    (dat4 V c).flushed 2 t = ((cfg4.win 2).blk t).view.read (Elt Ideal) (whole (V c main_v65) (V c main_arg7)) := by
  show (cfg4.win 2).cut (grid4.coords t) ((dat4 V c).after 2 t) = _
  rw [after4_2]
  unfold out4_2
  rw [View.canon_unit_zero origin]
  simp only [View.ld_unit_zero (S := S5000x256) origin, View.ld_unit_zero (S := S256x128) origin]
  obtain ⟨-, -, -, -, e20, e21, -⟩ := block_indices t
  funext j
  refine block_entry_at (iblk4 V c 0 t) (iblk4 V c 1 t) (V c main_v65) (V c main_arg7) (5000 * t.val)
    (fun p P k hP => feature_block V c t p P k hP) (fun k q => weight_block V c t k q) j (((cfg4.win 2).blk t).view.emb j) ?_ ?_
  · show win4_2.index t 0 * 5000 + 1 * (j 0).val = 5000 * t.val + (j 0).val
    rw [e20]; omega
  · show win4_2.index t 1 * 128 + 1 * (j 1).val = (j 1).val
    rw [e21]; omega

/-- Every row of the output array lies in the block of the point that owns its row block. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, e20, e21, -⟩ := block_indices t
  have ht : t.val = (i 0).val / 5000 := rfl
  refine ⟨t, flush4_2 t, ?_⟩
  show i ∈ ((View.whole main_v66).slice (win4_2.rect t)).set
  rw [View.set_slice_whole, Rect.mem_set_unit]
  intro a
  match a with
  | ⟨0, _⟩ => show win4_2.index t (0 : Fin 2) * 5000 ≤ (i 0).val ∧ (i 0).val < win4_2.index t (0 : Fin 2) * 5000 + 5000; rw [e20, ht]; omega
  | ⟨1, _⟩ => show win4_2.index t (1 : Fin 2) * 128 ≤ (i 1).val ∧ (i 1).val < win4_2.index t (1 : Fin 2) * 128 + 128; rw [e21]; omega

/-- After the region its output array holds the product of the feature array and the weight matrix it was entered with. -/
theorem final (c : Dev nD) : (dat4 V c).arrAt 2 cfg4.N = whole (V c main_v65) (V c main_arg7) :=
  (dat4 V c).arrAt_eq_of_cover 2 (whole (V c main_v65) (V c main_arg7)) (fun t _ => flushed_eq V c t) (fun i => covered i)

end Cert.KernelIdeal.Dense3

end
-- ==== Proof.Bias3.lean ====
/-
  Layer 3's bias step: what the sixth grid region leaves in its output array.

  The region has ten grid points. Point `t` fetches rows `5000·t … 5000·t + 4999` of the `50000 × 128` aggregated array and the
  one-row `1 × 128` bias array, adds the bias row to every row of the block, and writes the block
  back to the same rows of the output array. The step is entry by entry — `x[r, q] + b[0, q]` — so each write-back is its
  block of ONE whole-array function, which is written here as the host spells it: the bias row broadcast over all rows, added. The ten blocks tile the rows, so after the region the output array is that function of
  the two arrays it was entered with — stated for whatever contents `V` the region is entered from.
-/
import proofs.«142243_j52939766890970_1_alg».proof.Proof.Gen.KernelIdeal.Frame
import proofs.«142243_j52939766890970_1_alg».proof.Proof.LibDenseEntries
import Idealize.ShloMosaic.Lib.Pipeline.Value

set_option maxRecDepth 16384

noncomputable section

namespace Cert.KernelIdeal.Bias3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at grid point `t`: the aggregated and output blocks at row block `t`, the bias
    row whole. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

theorem rows_fact : (⟨2, ![1, 128]⟩ : Shape).BroadcastsInDim ⟨2, ![50000, 128]⟩ (![0, 1] : Fin 2 → Fin 2) := by decide

/-- The bias step on the whole arrays, in the host's spelling: what the output array ends holding. -/
abbrev whole (X : FVec Ideal ⟨2, ![50000, 128]⟩ .f32) (R : FVec Ideal ⟨2, ![1, 128]⟩ .f32) : FVec Ideal ⟨2, ![50000, 128]⟩ .f32 :=
  addf X (broadcastInDim ⟨2, ![50000, 128]⟩ ![0, 1] rows_fact R)

/-- The whole-array step at one entry. -/
theorem whole_apply (X : FVec Ideal ⟨2, ![50000, 128]⟩ .f32) (R : FVec Ideal ⟨2, ![1, 128]⟩ .f32) (P : Fin 50000) (q : Fin 128) :
    whole X R (ix2 P q) = X (ix2 P q) + R (ix2 (0 : Fin 1) q) := by
  show X (ix2 P q) + broadcastInDim ⟨2, ![50000, 128]⟩ ![0, 1] rows_fact R (ix2 P q) = _
  rw [Cert.Lib.DenseEntries.rows_of_row_apply]

/-- A block's step at one entry. -/
theorem body_apply (x0 : Vec Ideal S5000x128 .f32) (x1 : Vec Ideal S1x128 .f32) (p : Fin 5000) (q : Fin 128) :
    k5_pay1 x0 x1 (ix2 p q) = x0 (ix2 p q) + x1 (ix2 (0 : Fin 1) q) := by
  unfold k5_pay1
  show shapeCast S5000x128 x0 shapeCasts_S5000x128_S5000x128 (ix2 p q)
      + broadcastTo S5000x128 (shapeCast S1x128 x1 shapeCasts_S1x128_S1x128) broadcasts_S1x128_S5000x128 (ix2 p q) = _
  rw [shapeCast_self, shapeCast_self, broadcastTo_1b_ab_apply]

/-- An entry of a row block's step is the entry of the whole-array step in the block's row. -/
theorem block_entry_at (x0 : Vec Ideal S5000x128 .f32) (x1 : Vec Ideal S1x128 .f32)
    (X : FVec Ideal ⟨2, ![50000, 128]⟩ .f32) (R : FVec Ideal ⟨2, ![1, 128]⟩ .f32) (r : Nat)
    (hx0 : ∀ (p : Fin 5000) (P : Fin 50000) (q : Fin 128), P.val = r + p.val → x0 (ix2 p q) = X (ix2 P q))
    (hx1 : ∀ (q : Fin 128), x1 (ix2 (0 : Fin 1) q) = R (ix2 (0 : Fin 1) q))
    (j : S5000x128.Idx) (i : S50000x128.Idx) (h0 : (i 0).val = r + (j 0).val) (h1 : (i 1).val = (j 1).val) :
    k5_pay1 x0 x1 j = whole X R i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext h1
  rw [body_apply, whole_apply, hx0 p P Q h0, hx1 Q]

/-- The aggregated window's block at point `t` is rows `5000·t …` of the aggregated array as the region finds it. -/
theorem rows_block (c : Dev nD) (t : Fin cfg5.N) (p : Fin 5000) (P : Fin 50000) (q : Fin 128) (hP : P.val = 5000 * t.val + p.val) :
    (iblk5 V c 0 t : Vec Ideal S5000x128 .f32) (ix2 p q) = (V c main_v79 : S50000x128.Idx → Elt Ideal .f32) (ix2 P q) := by
  obtain ⟨e00, e01, -, -, -, -, -⟩ := block_indices t
  unfold iblk5
  rw [View.read_apply]
  show V c main_v79 _ = V c main_v79 _
  congr 1
  funext a
  apply Fin.ext
  match a with
  | ⟨0, _⟩ => show win5_0.index t 0 * 5000 + 1 * p.val = P.val; rw [e00, hP]; omega
  | ⟨1, _⟩ => show win5_0.index t 1 * 128 + 1 * q.val = q.val; rw [e01]; omega

/-- The bias window's block is the bias row at every point. -/
theorem bias_block (c : Dev nD) (t : Fin cfg5.N) (q : Fin 128) :
    (iblk5 V c 1 t : Vec Ideal S1x128 .f32) (ix2 (0 : Fin 1) q) = (V c main_v80 : S1x128.Idx → Elt Ideal .f32) (ix2 (0 : Fin 1) q) := by
  obtain ⟨-, -, e10, e11, -, -, -⟩ := block_indices t
  unfold iblk5
  rw [View.read_apply]
  show V c main_v80 _ = V c main_v80 _
  congr 1
  funext a
  apply Fin.ext
  match a with
  | ⟨0, _⟩ => show win5_1.index t 0 * 1 + 1 * 0 = 0; rw [e10]
  | ⟨1, _⟩ => show win5_1.index t 1 * 128 + 1 * q.val = q.val; rw [e11]; omega

/-- What point `t` writes back is its block of the whole-array step. -/
theorem flushed_eq (c : Dev nD) (t : Fin cfg5.N) :
    (dat5 V c).flushed 2 t = ((cfg5.win 2).blk t).view.read (Elt Ideal) (whole (V c main_v79) (V c main_v80)) := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨-, -, -, -, e20, e21, -⟩ := block_indices t
  funext j
  refine block_entry_at (iblk5 V c 0 t) (iblk5 V c 1 t) (V c main_v79) (V c main_v80) (5000 * t.val)
    (fun p P q hP => rows_block V c t p P q hP) (fun q => bias_block V c t q) j (((cfg5.win 2).blk t).view.emb j) ?_ ?_
  · show win5_2.index t 0 * 5000 + 1 * (j 0).val = 5000 * t.val + (j 0).val
    rw [e20]; omega
  · show win5_2.index t 1 * 128 + 1 * (j 1).val = (j 1).val
    rw [e21]; omega

/-- Every row of the output array lies in the block of the point that owns its row block. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, e20, e21, -⟩ := block_indices t
  have ht : t.val = (i 0).val / 5000 := rfl
  refine ⟨t, flush5_2 t, ?_⟩
  show i ∈ ((View.whole main_v81).slice (win5_2.rect t)).set
  rw [View.set_slice_whole, Rect.mem_set_unit]
  intro a
  match a with
  | ⟨0, _⟩ => show win5_2.index t (0 : Fin 2) * 5000 ≤ (i 0).val ∧ (i 0).val < win5_2.index t (0 : Fin 2) * 5000 + 5000; rw [e20, ht]; omega
  | ⟨1, _⟩ => show win5_2.index t (1 : Fin 2) * 128 ≤ (i 1).val ∧ (i 1).val < win5_2.index t (1 : Fin 2) * 128 + 128; rw [e21]; omega

/-- After the region its output array holds the bias step of the two arrays it was entered with. -/
theorem final (c : Dev nD) : (dat5 V c).arrAt 2 cfg5.N = whole (V c main_v79) (V c main_v80) :=
  (dat5 V c).arrAt_eq_of_cover 2 (whole (V c main_v79) (V c main_v80)) (fun t _ => flushed_eq V c t) (fun i => covered i)

end Cert.KernelIdeal.Bias3

end
-- ==== Proof.Layer3.lean ====
/-
  Layer 3 of the kernel's run is layer 3 of the reference.

  The layer is three steps. The fifth region multiplies the previous layer's output by the layer's weight matrix; a stretch of host
  operations gathers the product's rows along the edges' source rows, scales each by its edge's normalisation factor and
  adds them up by destination row, and casts the bias vector to a row; the sixth region adds that row to every node's
  row. The two regions leave the host's own product and bias step of what they were entered with (the
  region modules); the stretch is read off the program. With the shared arrays and the arguments carried to this layer's
  segments, each buffer is the reference's stage of the launch arguments, operation for operation.
-/
import proofs.«142243_j52939766890970_1_alg».proof.Proof.Gen.KernelIdeal.Frame
import proofs.«142243_j52939766890970_1_alg».proof.Proof.Gen.ReferenceIdeal.Read
import proofs.«142243_j52939766890970_1_alg».proof.Proof.LibReadLine
import proofs.«142243_j52939766890970_1_alg».proof.Proof.Layer2
import proofs.«142243_j52939766890970_1_alg».proof.Proof.Dense3
import proofs.«142243_j52939766890970_1_alg».proof.Proof.Bias3
import proofs.«142243_j52939766890970_1_alg».proof.Proof.LibDenseEntries

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Lib.ReadLine

variable (m : (ℓ : Loc nD τ sig) → Buf (Elt Ideal) ℓ) (ρ : Dev nD → PrngReg)

/-- The layer's product, after the fifth region. -/
theorem dense3_out (c : Dev nD) :
    W11 m ρ c (Proc.devRef .tc main_v66) = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W11_arr m ρ c 2).trans ((Cert.KernelIdeal.Dense3.final (V10 m ρ) c).trans ?_)
  show Cert.KernelIdeal.Dense3.whole (W10 m ρ c (Proc.devRef .tc main_v65)) (W10 m ρ c (Proc.devRef .tc main_arg7)) = _
  rw [layer2_out m ρ c, at10_arg7 m ρ c]
  rfl

set_option maxHeartbeats 4000000 in
/-- The layer's aggregation, after the stretch between the two regions. -/
theorem agg3 (c : Dev nD) :
    W12 m ρ c (Proc.devRef .tc main_v79) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after hostOps5 (W11 m ρ c) (Proc.devRef .tc main_v79) = _
  read_line
  rw [dense3_out m ρ c, at11_v6 m ρ c, at11_v7 m ρ c, at11_v33 m ρ c]
  rfl

/-- The layer's bias as a row, after the same stretch: the kernel casts the vector to `[1, 128]`, the reference
    broadcasts it there, and the two rows are one array. -/
theorem row3 (c : Dev nD) :
    W12 m ρ c (Proc.devRef .tc main_v80) = Cert.ReferenceIdeal.Read.val_main_v84 (F := Ideal) (m ((c.tc : Thread nD τ).loc main_arg8)) := by
  show after hostOps5 (W11 m ρ c) (Proc.devRef .tc main_v80) = _
  read_line
  rw [at11_arg8 m ρ c]
  exact Cert.Lib.DenseEntries.row_cast_eq (N := 128) (m ((c.tc : Thread nD τ).loc main_arg8)) shapeCasts_S128_S1x128 row_fact128

/-- The layer's output, after the sixth region. -/
theorem layer3_out (c : Dev nD) :
    W13 m ρ c (Proc.devRef .tc main_v81) = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W13_arr m ρ c 2).trans ((Cert.KernelIdeal.Bias3.final (V12 m ρ) c).trans ?_)
  show Cert.KernelIdeal.Bias3.whole (W12 m ρ c (Proc.devRef .tc main_v79)) (W12 m ρ c (Proc.devRef .tc main_v80)) = _
  rw [agg3 m ρ c, row3 m ρ c]
  rfl

end Cert.KernelIdeal.Chain

end
-- ==== Proof.lean ====
/-
  The certificate of a three-layer graph convolution network: the kernel, its idealization and the reference.

  The network takes node features `x : 50000 × 128`, an edge list and raw edge weights. From the edges and the softplus of
  the weights, with a unit-weight self-loop added at every node, it computes once the symmetric degree normalisation of
  every edge. Each of the three layers then multiplies the features by a weight matrix, sums for every node the products'
  rows over its incoming edges scaled by the edges' normalisation, and adds a bias (the first two layers clamp at zero).

  The kernel runs each layer's product and each layer's bias step as a grid region over ten row blocks, with the
  aggregation between them as host operations; the reference runs everything as host operations. Over the extended reals
  the two are the same function of the arguments, operation for operation: a row-blocked product is the product (and a
  rounding to bf16 is the identity), a row-blocked bias step is the bias step, and the aggregation and the normalisation are
  spelt with the same operations on both sides. No algebraic law is used, so the finiteness of the inputs is never opened.

  * The three frames: the two kernels' are the generated frame theorems; the reference's is its generated run with the
    result dropped.
  * `preserves`: the ideal pass rewrote nothing, the conjunct is `True`.
  * `algebraic`: the kernel's run ends with its result buffer at the last segment boundary's contents (module ResultRun),
    which layer by layer (modules Entry, Carry, Layer1, Layer2, Layer3 over the region modules Dense1 … Bias3) is the
    reference's last stage of the launch arguments; the reference's generated run ends at the same stage.
-/
import proofs.«142243_j52939766890970_1_alg».proof.Defs
import proofs.«142243_j52939766890970_1_alg».proof.Proof.Gen.Kernel
import proofs.«142243_j52939766890970_1_alg».proof.Proof.Gen.Kernel.Frame
import proofs.«142243_j52939766890970_1_alg».proof.Proof.Gen.KernelIdeal
import proofs.«142243_j52939766890970_1_alg».proof.Proof.Gen.KernelIdeal.Frame
import proofs.«142243_j52939766890970_1_alg».proof.Proof.Gen.ReferenceIdeal
import proofs.«142243_j52939766890970_1_alg».proof.Proof.Gen.Pre_finite_inputs
import proofs.«142243_j52939766890970_1_alg».proof.Proof.Gen.ReferenceIdeal.Run
import proofs.«142243_j52939766890970_1_alg».proof.Proof.Gen.ReferenceIdeal.Read
import proofs.«142243_j52939766890970_1_alg».proof.Proof.ResultRun
import proofs.«142243_j52939766890970_1_alg».proof.Proof.Layer3
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the kernel's launch arguments. -/
theorem algebraic : Cert.algebraic_KernelIdeal_ReferenceIdeal := by
  intro m ρ m' ρ' _ hagree
  refine ⟨fun c => Cert.KernelIdeal.Gen.W13 m ρ c (Proc.devRef .tc Cert.KernelIdeal.main_v81),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v86_eq m' c, e0, e1, e2, e3, e4, e5, e6, e7, e8]
  exact (Cert.KernelIdeal.Chain.layer3_out m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
